-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16641 : Shape := ⟨2, ![1024, 16641]⟩
abbrev S1024x129 : Shape := ⟨2, ![1024, 129]⟩
abbrev S1024x16384 : Shape := ⟨2, ![1024, 16384]⟩
abbrev S33154x512 : Shape := ⟨2, ![33154, 512]⟩
abbrev S512 : Shape := ⟨1, ![512]⟩
abbrev S512x129 : Shape := ⟨2, ![512, 129]⟩
abbrev S129 : Shape := ⟨1, ![129]⟩
abbrev S_ : Shape := ⟨0, ![]⟩

class Facts : Prop where
  bcast_S_S1024x16641 : S_.BroadcastsInDim S1024x16641 (![] : Fin 0 → Fin S1024x16641.rank)
  reducesTo_S1024x16641_S_d0_1 : S1024x16641.ReducesTo [0, 1] S_
  h_S_ : 0 < S_.numel
  bcast_S_S1024x129 : S_.BroadcastsInDim S1024x129 (![] : Fin 0 → Fin S1024x129.rank)
  reducesTo_S1024x129_S_d0_1 : S1024x129.ReducesTo [0, 1] S_
  bcast_S_S1024x16384 : S_.BroadcastsInDim S1024x16384 (![] : Fin 0 → Fin S1024x16384.rank)
  reducesTo_S1024x16384_S_d0_1 : S1024x16384.ReducesTo [0, 1] S_
  bcast_S_S33154x512 : S_.BroadcastsInDim S33154x512 (![] : Fin 0 → Fin S33154x512.rank)
  reducesTo_S33154x512_S_d0_1 : S33154x512.ReducesTo [0, 1] S_
  bcast_S_S512 : S_.BroadcastsInDim S512 (![] : Fin 0 → Fin S512.rank)
  reducesTo_S512_S_d0 : S512.ReducesTo [0] S_
  bcast_S_S512x129 : S_.BroadcastsInDim S512x129 (![] : Fin 0 → Fin S512x129.rank)
  reducesTo_S512x129_S_d0_1 : S512x129.ReducesTo [0, 1] S_
  bcast_S_S129 : S_.BroadcastsInDim S129 (![] : Fin 0 → Fin S129.rank)
  reducesTo_S129_S_d0 : S129.ReducesTo [0] S_

variable [Facts]

def fn_part1 {F : FTy → Type} [FloatOps F] (main_arg4 : FVec F S512 .f32) (main_arg5 : FVec F S512x129 .f32) (main_arg6 : FVec F S129 .f32) (main_v13 : IVec S_ 1) (main_v16 : IVec S33154x512 1) : IVec S_ 1 :=
  let main_c_5 : IVec S_ 1 := constantI S_ 1 1#1
  let main_v17 : IVec S_ 1 := (fun x v => Host.reduce IntOp.andi x v reducesTo_S33154x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x129 .f32 := Host.absf main_arg5
  let main_cst_8 : FVec F S_ .f32 := constant S_ .f32 0x7F800000#32
  let main_v25 : FVec F S512x129 .f32 := broadcastInDim S512x129 ![] bcast_S_S512x129 main_cst_8
  let main_v26 : IVec S512x129 1 := cmpf .olt main_v24 main_v25
  let main_c_9 : IVec S_ 1 := constantI S_ 1 1#1
  let main_v27 : IVec S_ 1 := (fun x v => Host.reduce IntOp.andi x v reducesTo_S512x129_S_d0_1 h_S_) main_v26 main_c_9
  let main_v28 : IVec S_ 1 := andi main_v23 main_v27
  let main_v29 : FVec F S129 .f32 := Host.absf main_arg6
  let main_cst_10 : FVec F S_ .f32 := constant S_ .f32 0x7F800000#32
  let main_v30 : FVec F S129 .f32 := broadcastInDim S129 ![] bcast_S_S129 main_cst_10
  let main_v31 : IVec S129 1 := cmpf .olt main_v29 main_v30
  let main_c_11 : IVec S_ 1 := constantI S_ 1 1#1
  let main_v32 : IVec S_ 1 := (fun x v => Host.reduce IntOp.andi x v reducesTo_S129_S_d0 h_S_) main_v31 main_c_11
  let main_v33 : IVec S_ 1 := andi main_v28 main_v32
  main_v33

def fn {F : FTy → Type} [FloatOps F] (main_arg0 : FVec F S1024x16641 .f32) (main_arg1 : FVec F S1024x129 .f32) (main_arg2 : FVec F S1024x16384 .f32) (main_arg3 : FVec F S33154x512 .f32) (main_arg4 : FVec F S512 .f32) (main_arg5 : FVec F S512x129 .f32) (main_arg6 : FVec F S129 .f32) : IVec S_ 1 :=
  let main_v0 : FVec F S1024x16641 .f32 := Host.absf main_arg0
  let main_cst : FVec F S_ .f32 := constant S_ .f32 0x7F800000#32
  let main_v1 : FVec F S1024x16641 .f32 := broadcastInDim S1024x16641 ![] bcast_S_S1024x16641 main_cst
  let main_v2 : IVec S1024x16641 1 := cmpf .olt main_v0 main_v1
  let main_c : IVec S_ 1 := constantI S_ 1 1#1
  let main_v3 : IVec S_ 1 := (fun x v => Host.reduce IntOp.andi x v reducesTo_S1024x16641_S_d0_1 h_S_) main_v2 main_c
  let main_v4 : FVec F S1024x129 .f32 := Host.absf main_arg1
  let main_cst_0 : FVec F S_ .f32 := constant S_ .f32 0x7F800000#32
  let main_v5 : FVec F S1024x129 .f32 := broadcastInDim S1024x129 ![] bcast_S_S1024x129 main_cst_0
  let main_v6 : IVec S1024x129 1 := cmpf .olt main_v4 main_v5
  let main_c_1 : IVec S_ 1 := constantI S_ 1 1#1
  let main_v7 : IVec S_ 1 := (fun x v => Host.reduce IntOp.andi x v reducesTo_S1024x129_S_d0_1 h_S_) main_v6 main_c_1
  let main_v8 : IVec S_ 1 := andi main_v3 main_v7
  let main_v9 : FVec F S1024x16384 .f32 := Host.absf main_arg2
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  let main_v14 : FVec F S33154x512 .f32 := Host.absf main_arg3
  let main_cst_4 : FVec F S_ .f32 := constant S_ .f32 0x7F800000#32
  let main_v15 : FVec F S33154x512 .f32 := broadcastInDim S33154x512 ![] bcast_S_S33154x512 main_cst_4
  let main_v16 : IVec S33154x512 1 := cmpf .olt main_v14 main_v15
  fn_part1 (F := F) main_arg4 main_arg5 main_arg6 main_v13 main_v16
-- ==== Kernel.lean ====
abbrev S1024x16641 : Shape := ⟨2, ![1024, 16641]⟩
abbrev S1024x129 : Shape := ⟨2, ![1024, 129]⟩
abbrev S1024x16384 : Shape := ⟨2, ![1024, 16384]⟩
abbrev S33154x512 : Shape := ⟨2, ![33154, 512]⟩
abbrev S512 : Shape := ⟨1, ![512]⟩
abbrev S512x129 : Shape := ⟨2, ![512, 129]⟩
abbrev S129 : Shape := ⟨1, ![129]⟩
abbrev S257x512 : Shape := ⟨2, ![257, 512]⟩
abbrev S129x512 : Shape := ⟨2, ![129, 512]⟩
abbrev S16384x512 : Shape := ⟨2, ![16384, 512]⟩
abbrev S1024x257 : Shape := ⟨2, ![1024, 257]⟩
abbrev S1x512 : Shape := ⟨2, ![1, 512]⟩
abbrev S1x129 : Shape := ⟨2, ![1, 129]⟩
abbrev S512x1024 : Shape := ⟨2, ![512, 1024]⟩
abbrev S1024x512 : Shape := ⟨2, ![1024, 512]⟩
abbrev S512x257 : Shape := ⟨2, ![512, 257]⟩
abbrev S512x512 : Shape := ⟨2, ![512, 512]⟩
abbrev S132096 : Shape := ⟨1, ![132096]⟩

abbrev nBuf : Space → Nat
  | .hbm => 15
  | .vmem => 20
  | .smem => 0
  | _ => 0

abbrev bufTy : (tb : Table) → Fin (tcTables nBuf tb) → BufTy
  | .hbm, ⟨0, _⟩ => ⟨S1024x16641, .f32⟩
  | .hbm, ⟨1, _⟩ => ⟨S1024x129, .f32⟩
  | .hbm, ⟨2, _⟩ => ⟨S1024x16384, .f32⟩
  | .hbm, ⟨3, _⟩ => ⟨S33154x512, .f32⟩
  | .hbm, ⟨4, _⟩ => ⟨S512, .f32⟩
  | .hbm, ⟨5, _⟩ => ⟨S512x129, .f32⟩
  | .hbm, ⟨6, _⟩ => ⟨S129, .f32⟩
  | .hbm, ⟨7, _⟩ => ⟨S257x512, .f32⟩
  | .hbm, ⟨8, _⟩ => ⟨S129x512, .f32⟩
  | .hbm, ⟨9, _⟩ => ⟨S16384x512, .f32⟩
  | .hbm, ⟨10, _⟩ => ⟨S1024x257, .f32⟩
  | .hbm, ⟨11, _⟩ => ⟨S1x512, .f32⟩
  | .hbm, ⟨12, _⟩ => ⟨S1x129, .f32⟩
  | .hbm, ⟨13, _⟩ => ⟨S1024x129, .f32⟩
  | .hbm, ⟨14, _⟩ => ⟨S132096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x1024, .f32⟩
  | .local _ .vmem, ⟨5, _⟩ => ⟨S512x1024, .f32⟩
  | .local _ .vmem, ⟨6, _⟩ => ⟨S1024x512, .f32⟩
  | .local _ .vmem, ⟨7, _⟩ => ⟨S1024x512, .f32⟩
  | .local _ .vmem, ⟨8, _⟩ => ⟨S512x129, .f32⟩
  | .local _ .vmem, ⟨9, _⟩ => ⟨S512x129, .f32⟩
  | .local _ .vmem, ⟨10, _⟩ => ⟨S129x512, .f32⟩
  | .local _ .vmem, ⟨11, _⟩ => ⟨S512x257, .f32⟩
  | .local _ .vmem, ⟨12, _⟩ => ⟨S512x257, .f32⟩
  | .local _ .vmem, ⟨13, _⟩ => ⟨S257x512, .f32⟩
  | .local _ .vmem, ⟨14, _⟩ => ⟨S1x512, .f32⟩
  | .local _ .vmem, ⟨15, _⟩ => ⟨S512x129, .f32⟩
  | .local _ .vmem, ⟨16, _⟩ => ⟨S1x129, .f32⟩
  | .local _ .vmem, ⟨17, _⟩ => ⟨S512x129, .f32⟩
  | .local _ .vmem, ⟨18, _⟩ => ⟨S512x129, .f32⟩
  | .local _ .vmem, ⟨19, _⟩ => ⟨S512x512, .f32⟩
  | _, _ => ⟨S1024x16641, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 32], ![false, false]⟩

def k0_cond4 (i : grid0.Coords) : BitVec 1 :=
  let arg1 : BitVec 32 := BitVec.ofNat 32 (i 1).val
  let c31_i32 : BitVec 32 := 31#32
  let v9 : BitVec 1 := Scalar.cmpi .eq arg1 c31_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x129 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S129x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x257 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S257x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x129 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x129 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x129 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  slices_S33154x512_S257x512_16384_0 : S33154x512.Slices ![16384, 0] S257x512
  slices_S33154x512_S129x512_16641_0 : S33154x512.Slices ![16641, 0] S129x512
  slices_S33154x512_S16384x512_16770_0 : S33154x512.Slices ![16770, 0] S16384x512
  slices_S1024x16641_S1024x257_0_16384 : S1024x16641.Slices ![0, 16384] S1024x257
  shapeCasts_S512_S1x512 : S512.ShapeCasts S1x512
  shapeCasts_S129_S1x129 : S129.ShapeCasts S1x129
  inb_S512x129_S512x129_0_0 : ∀ a, (![0, 0] : Fin 2 → Nat) a + S512x129.size a ≤ S512x129.size a
  h_S512x129 : 0 < S512x129.numel
  bitsLt_bf16_f32 : FTy.bits .bf16 < FTy.bits .f32
  inb_S129x512_S129x512_0_0 : ∀ a, (![0, 0] : Fin 2 → Nat) a + S129x512.size a ≤ S129x512.size a
  h_S129x512 : 0 < S129x512.numel
  shapeCasts_S129x512_S129x512 : S129x512.ShapeCasts S129x512
  inb_S512x257_S512x257_0_0 : ∀ a, (![0, 0] : Fin 2 → Nat) a + S512x257.size a ≤ S512x257.size a
  h_S512x257 : 0 < S512x257.numel
  shapeCasts_S512x257_S512x257 : S512x257.ShapeCasts S512x257
  inb_S257x512_S257x512_0_0 : ∀ a, (![0, 0] : Fin 2 → Nat) a + S257x512.size a ≤ S257x512.size a
  h_S257x512 : 0 < S257x512.numel
  shapeCasts_S257x512_S257x512 : S257x512.ShapeCasts S257x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S1x129_S1x129_0_0 : ∀ a, (![0, 0] : Fin 2 → Nat) a + S1x129.size a ≤ S1x129.size a
  h_S1x129 : 0 < S1x129.numel
  shapeCasts_S1x129_S1x129 : S1x129.ShapeCasts S1x129
  broadcasts_S1x129_S512x129 : S1x129.Broadcasts S512x129
  shapeCasts_S1024x129_S132096 : S1024x129.ShapeCasts S132096
  dot_S512x129_S129x512_S512x512_1_0_0_1_n_n_wf : DotDims.WF S512x129 S129x512 S512x512 [1] [0] [0] [1] [] []
  dot_S512x257_S257x512_S512x512_1_0_0_1_n_n_wf : DotDims.WF S512x257 S257x512 S512x512 [1] [0] [0] [1] [] []
  dot_S512x1024_S1024x512_S512x512_1_0_0_1_n_n_wf : DotDims.WF S512x1024 S1024x512 S512x512 [1] [0] [0] [1] [] []
  dot_S512x512_S512x129_S512x129_1_0_0_1_n_n_wf : DotDims.WF S512x512 S512x129 S512x129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x1024.size a < S1024x16641.size a
  hwx0_0 : ∀ i : grid0.Coords, EltTy.bits .f32 = 32 ∨ (Rect.unit (s := S1024x16641) (fun a => cc0_transform_0 i a * S512x1024.size a) (fun a => (Pipeline.Clip.of (cc0_transform_0 i a) (S512x1024.size a) (S1024x16641.size a)).extent (S512x1024.size a)) fun a => Pipeline.Clip.inb (Pipeline.Clip.ok_of (hstart0_0 i a))).WholeWords (EltTy.packing .f32)
  hwxs0_0 : ∀ i : grid0.Coords, EltTy.bits .f32 = 32 ∨ (Rect.unit (s := S512x1024) (fun _ => 0) (fun a => (Pipeline.Clip.of (cc0_transform_0 i a) (S512x1024.size a) (S1024x16641.size a)).extent (S512x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S33154x512.size a
  hwx0_1 : ∀ i : grid0.Coords, EltTy.bits .f32 = 32 ∨ (Rect.unit (s := S33154x512) (fun a => cc0_transform_1 i a * S1024x512.size a) (fun a => (Pipeline.Clip.of (cc0_transform_1 i a) (S1024x512.size a) (S33154x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S33154x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S1024x16384.size a
  hwx0_2 : ∀ i : grid0.Coords, EltTy.bits .f32 = 32 ∨ (Rect.block (s := S1024x16384) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x512.size a
  hwx0_3 : ∀ i : grid0.Coords, EltTy.bits .f32 = 32 ∨ (Rect.block (s := S16384x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x129.size a ≤ S1024x129.size a
  hwx0_4 : ∀ i : grid0.Coords, EltTy.bits .f32 = 32 ∨ (Rect.block (s := S1024x129) S512x129.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S129x512.size a ≤ S129x512.size a
  hwx0_5 : ∀ i : grid0.Coords, EltTy.bits .f32 = 32 ∨ (Rect.block (s := S129x512) S129x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x257.size a ≤ S1024x257.size a
  hwx0_6 : ∀ i : grid0.Coords, EltTy.bits .f32 = 32 ∨ (Rect.block (s := S1024x257) S512x257.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S257x512.size a ≤ S257x512.size a
  hwx0_7 : ∀ i : grid0.Coords, EltTy.bits .f32 = 32 ∨ (Rect.block (s := S257x512) S257x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x129.size a ≤ S512x129.size a
  hwx0_9 : ∀ i : grid0.Coords, EltTy.bits .f32 = 32 ∨ (Rect.block (s := S512x129) S512x129.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x129.size a ≤ S1x129.size a
  hwx0_10 : ∀ i : grid0.Coords, EltTy.bits .f32 = 32 ∨ (Rect.block (s := S1x129) S1x129.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x129.size a ≤ S1024x129.size a
  hwx0_11 : ∀ i : grid0.Coords, EltTy.bits .f32 = 32 ∨ (Rect.block (s := S1024x129) S512x129.size (cc0_transform_11 i) (hinb0_11 i)).WholeWords (EltTy.packing .f32)

variable [Facts₀]

def dot_S512x129_S129x512_S512x512_1_0_0_1_n_n : DotDims S512x129 S129x512 S512x512 where
  lhsContracting := [1]
  rhsContracting := [0]
  lhsNonContracting := [0]
  rhsNonContracting := [1]
  lhsBatch := []
  rhsBatch := []
  wf := dot_S512x129_S129x512_S512x512_1_0_0_1_n_n_wf
def dot_S512x257_S257x512_S512x512_1_0_0_1_n_n : DotDims S512x257 S257x512 S512x512 where
  lhsContracting := [1]
  rhsContracting := [0]
  lhsNonContracting := [0]
  rhsNonContracting := [1]
  lhsBatch := []
  rhsBatch := []
  wf := dot_S512x257_S257x512_S512x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x129_S512x129_1_0_0_1_n_n : DotDims S512x512 S512x129 S512x129 where
  lhsContracting := [1]
  rhsContracting := [0]
  lhsNonContracting := [0]
  rhsNonContracting := [1]
  lhsBatch := []
  rhsBatch := []
  wf := dot_S512x512_S512x129_S512x129_1_0_0_1_n_n_wf

abbrev win0_0 : Pipeline.Window sig grid0 :=
  Pipeline.Window.ofSpecClip (Memref.whole main_arg0) S512x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg3) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x129.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S129x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x257.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S257x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S512x129.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x129.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S512x129.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond4 i == 1#1) | ⟨_ + 12, h⟩ => absurd h (Nat.not_lt.2 (Nat.le_add_left _ _))

class Facts : Prop extends Facts₀ where

variable [Facts]
-- ==== ReferenceIdeal.lean ====
abbrev S1024x16641 : Shape := ⟨2, ![1024, 16641]⟩
abbrev S1024x129 : Shape := ⟨2, ![1024, 129]⟩
abbrev S1024x16384 : Shape := ⟨2, ![1024, 16384]⟩
abbrev S33154x512 : Shape := ⟨2, ![33154, 512]⟩
abbrev S512 : Shape := ⟨1, ![512]⟩
abbrev S512x129 : Shape := ⟨2, ![512, 129]⟩
abbrev S129 : Shape := ⟨1, ![129]⟩
abbrev S1024x33154 : Shape := ⟨2, ![1024, 33154]⟩
abbrev S1024x512 : Shape := ⟨2, ![1024, 512]⟩
abbrev S1x512 : Shape := ⟨2, ![1, 512]⟩
abbrev S_ : Shape := ⟨0, ![]⟩
abbrev S1x129 : Shape := ⟨2, ![1, 129]⟩
abbrev S132096 : Shape := ⟨1, ![132096]⟩

abbrev nBuf : Space → Nat
  | .hbm => 20
  | .vmem => 0
  | .smem => 0
  | _ => 0

abbrev bufTy : (tb : Table) → Fin (tcTables nBuf tb) → BufTy
  | .hbm, ⟨0, _⟩ => ⟨S1024x16641, .f32⟩
  | .hbm, ⟨1, _⟩ => ⟨S1024x129, .f32⟩
  | .hbm, ⟨2, _⟩ => ⟨S1024x16384, .f32⟩
  | .hbm, ⟨3, _⟩ => ⟨S33154x512, .f32⟩
  | .hbm, ⟨4, _⟩ => ⟨S512, .f32⟩
  | .hbm, ⟨5, _⟩ => ⟨S512x129, .f32⟩
  | .hbm, ⟨6, _⟩ => ⟨S129, .f32⟩
  | .hbm, ⟨7, _⟩ => ⟨S1024x33154, .f32⟩
  | .hbm, ⟨8, _⟩ => ⟨S1024x512, .f32⟩
  | .hbm, ⟨9, _⟩ => ⟨S1x512, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x129, .f32⟩
  | .hbm, ⟨16, _⟩ => ⟨S1x129, .f32⟩
  | .hbm, ⟨17, _⟩ => ⟨S1024x129, .f32⟩
  | .hbm, ⟨18, _⟩ => ⟨S1024x129, .f32⟩
  | .hbm, ⟨19, _⟩ => ⟨S132096, .f32⟩
  | _, _ => ⟨S1024x16641, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  concatenates_S1024x16641_S1024x129_S1024x16384_S1024x33154_d1 : Shape.Concatenates [S1024x16641, S1024x129, S1024x16384] S1024x33154 1
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S129_S1x129_1 : S129.BroadcastsInDim S1x129 (![1] : Fin 1 → Fin S1x129.rank)
  bcast_S1x129_S1024x129_0_1 : S1x129.BroadcastsInDim S1024x129 (![0, 1] : Fin 2 → Fin S1024x129.rank)
  shapeCasts_S1024x129_S132096 : S1024x129.ShapeCasts S132096
  dot_S1024x33154_S33154x512_S1024x512_1_0_0_1_n_n_wf : DotDims.WF S1024x33154 S33154x512 S1024x512 [1] [0] [0] [1] [] []
  dot_S1024x512_S512x129_S1024x129_1_0_0_1_n_n_wf : DotDims.WF S1024x512 S512x129 S1024x129 [1] [0] [0] [1] [] []

variable [Facts₀]

def dot_S1024x33154_S33154x512_S1024x512_1_0_0_1_n_n : DotDims S1024x33154 S33154x512 S1024x512 where
  lhsContracting := [1]
  rhsContracting := [0]
  lhsNonContracting := [0]
  rhsNonContracting := [1]
  lhsBatch := []
  rhsBatch := []
  wf := dot_S1024x33154_S33154x512_S1024x512_1_0_0_1_n_n_wf
def dot_S1024x512_S512x129_S1024x129_1_0_0_1_n_n : DotDims S1024x512 S512x129 S1024x129 where
  lhsContracting := [1]
  rhsContracting := [0]
  lhsNonContracting := [0]
  rhsNonContracting := [1]
  lhsBatch := []
  rhsBatch := []
  wf := dot_S1024x512_S512x129_S1024x129_1_0_0_1_n_n_wf

class Facts : Prop extends Facts₀ where

variable [Facts]
-- ==== Proof.Kernel.Shared.lean ====
/-
  What the four control cases of the kernel body share: the staging buffers a grid point runs on, the scratch
  accumulator, the four branch conditions as functions of the grid point, decided over the 2 × 32 grid, and where the
  output window is idle.

  With the second grid coordinate written i (0 ≤ i < 32): the first branch (the accumulator is started from the two
  short products) is taken when i = 0, the second (a tile of st is added) when i < 16, the third (a tile of st1 is
  added) when i ≥ 16, the fourth (bias, cut-off at zero, second product, store of the output block) when i = 31. The
  output block is stored, and written back, at i = 31 only.
-/
import proofs.«113821_j69922067579329_2_alg».proof.Proof.Gen.Kernel.Frame
import proofs.«113821_j69922067579329_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x129 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S129x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x257 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S257x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x129 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x129 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x129 .f32 := win0_11.stage (cfg0.slots t 11)
abbrev hs0_11 (t : Fin cfg0.N) : (ms0_11 t).IsWhole := hstage0_11 ((cfg0.slots t 11).cast nbuf0_11)

/-- The accumulator: a whole scratch buffer of the kernel's own, kept from one grid point to the next. -/
abbrev scM : Memref sig .tc .vmem S512x512 .f32 := Memref.whole cc0_scratch0

/-- The region's own resources, spelt out: the accumulator at some contents, and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The branch conditions -/

/-- i = 0 -/
abbrev cond1 (i : grid0.Coords) : Prop := (Scalar.cmpi .ne (Scalar.extui (Scalar.cmpi .eq (BitVec.ofNat 32 (i 1).val) 0#32)) 0#32) = 1#1
/-- i < 16 -/
abbrev cond2 (i : grid0.Coords) : Prop := (Scalar.cmpi .ne (Scalar.extui (Scalar.cmpi .slt (BitVec.ofNat 32 (i 1).val) 16#32)) 0#32) = 1#1
/-- i ≥ 16 -/
abbrev cond3 (i : grid0.Coords) : Prop := (Scalar.cmpi .ne (Scalar.extui (Scalar.cmpi .sge (BitVec.ofNat 32 (i 1).val) 16#32)) 0#32) = 1#1
/-- i = 31 -/
abbrev cond4 (i : grid0.Coords) : Prop := k0_cond4 i = 1#1

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 < 16 :=
  (by decide +kernel : ∀ t : Fin grid0.N, cond2 (grid0.coords t) ↔ t.val % 32 < 16)
theorem hcond3 : ∀ t : Fin cfg0.N, cond3 (grid0.coords t) ↔ 16 ≤ t.val % 32 :=
  (by decide +kernel : ∀ t : Fin grid0.N, cond3 (grid0.coords t) ↔ 16 ≤ t.val % 32)
theorem hcond4 : ∀ t : Fin cfg0.N, cond4 (grid0.coords t) ↔ t.val % 32 = 31 :=
  (by decide +kernel : ∀ t : Fin grid0.N, cond4 (grid0.coords t) ↔ t.val % 32 = 31)

/-! ## Where the output window is idle -/

theorem idleAt11 : ∀ t : Fin cfg0.N, ¬cond4 (grid0.coords t) → cfg0.idle 11 (grid0.coords t) = true := by decide +kernel
theorem noFlush11 : ∀ t : Fin cfg0.N, ¬cond4 (grid0.coords t) → (cfg0.win 11).flush t = false := by decide +kernel
theorem liveAt11 : ∀ t : Fin cfg0.N, cond4 (grid0.coords t) → cfg0.idle 11 (grid0.coords t) = false := by decide +kernel

end Cert.Kernel.Hand

end
-- ==== Proof.Kernel.Runs.lean ====
/-
  The kernel body run once in each of its four control cases, on any whole staging buffers: which buffers it reads,
  and what it leaves in the accumulator and in the output's buffer, as the body's own arithmetic applied to what the
  buffers held (the payload functions `k0_pay1` … `k0_pay4` of the body's four stores).

  Every load and every store of this body moves a whole buffer, so a load reads the buffer's contents and a store
  leaves exactly its payload.
-/
import proofs.«113821_j69922067579329_2_alg».proof.Proof.Kernel.Shared
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 2000000 in
/-- First reduction step (i = 0): the accumulator, whatever it held, is started from the two short products and st's first tile is added. -/
theorem runA (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S512x129 .f32) (harg6 : arg6.IsWhole) (arg7 : Memref sig .tc .vmem S129x512 .f32) (harg7 : arg7.IsWhole) (arg8 : Memref sig .tc .vmem S512x257 .f32) (harg8 : arg8.IsWhole) (arg9 : Memref sig .tc .vmem S257x512 .f32) (harg9 : arg9.IsWhole) (arg10 : Memref sig .tc .vmem S1x512 .f32) (harg10 : arg10.IsWhole) (arg11 : Memref sig .tc .vmem S512x129 .f32) (harg11 : arg11.IsWhole) (arg12 : Memref sig .tc .vmem S1x129 .f32) (harg12 : arg12.IsWhole) (arg13 : Memref sig .tc .vmem S512x129 .f32) (harg13 : arg13.IsWhole) (arg14 : Memref sig .tc .vmem S512x512 .f32) (harg14 : arg14.IsWhole)
    (hc1 : cond1 i) (hc2 : cond2 i) (hc3 : ¬cond3 i) (hc4 : ¬cond4 i)
    (x6 : Vec F S512x129 .f32) (x7 : Vec F S129x512 .f32) (x8 : Vec F S512x257 .f32) (x9 : Vec F S257x512 .f32) (x2 : Vec F S512x1024 .f32) (x3 : Vec F S1024x512 .f32) (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg2 fullShare x2 ∗ owns (c : Thread nD τ) arg3 fullShare x3 ∗ (∃ d, owns (c : Thread nD τ) arg14 fullShare d)
        ∗ (iprop(owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg2 fullShare x2
            ∗ owns (c : Thread nD τ) arg3 fullShare x3
            ∗ owns (c : Thread nD τ) arg14 fullShare (k0_pay2 (k0_pay1 x6 x7 x8 x9) x2 x3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → Nat) = fun _ => 0 := funext fun a => by fin_cases a <;> rfl
  simp only [cc0__kernel_eq_skeleton]; unfold cc0__kernel_skel
  unfold owns
  iintro ⟨⟨%f6, %hf6, H6⟩, ⟨%f7, %hf7, H7⟩, ⟨%f8, %hf8, H8⟩, ⟨%f9, %hf9, H9⟩, ⟨%f2, %hf2, H2⟩, ⟨%f3, %hf3, H3⟩, ⟨%d14, %f14, -, H14⟩, Hk⟩
  obtain rfl := harg6.eq_unread hf6; obtain rfl := harg7.eq_unread hf7; obtain rfl := harg8.eq_unread hf8; obtain rfl := harg9.eq_unread hf9; obtain rfl := harg2.eq_unread hf2; obtain rfl := harg3.eq_unread hf3
  sl_exec (disch := first | exact hc1 | exact hc2 | exact hc3 | exact hc4)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H2]
  · iexists _; isplitr; · ipureintro; exact harg2.read_unread _
    iexact H2
  isplitl [H3]
  · iexists _; isplitr; · ipureintro; exact harg3.read_unread _
    iexact H3
  iexists _; isplitr
  swap; · iexact H14
  ipureintro
  try sl_unfold_run_names
  rw [View.read_writes_eq_canon _ _ _ (fun y => ⟨_, List.mem_cons_self, View.mem_set_unit_zero hz inb_S512x512_S512x512_0_0 y⟩), View.canon_cons_unit_zero hz]
  (try rw [View.readCov_unit_zero (S := S512x512) arg14.view hz])
  all_goals (first | rfl | simp only [View.readAt_eq_ld, hf6, hf7, hf8, hf9, hf2, hf3, View.ld_unit_zero (S := S512x129) hz, View.ld_unit_zero (S := S129x512) hz, View.ld_unit_zero (S := S512x257) hz, View.ld_unit_zero (S := S257x512) hz, View.ld_unit_zero (S := S512x1024) hz, View.ld_unit_zero (S := S1024x512) hz, View.ld_unit_zero (S := S512x512) hz])

set_option maxHeartbeats 2000000 in
/-- Steps 1 … 15: a tile of st against its rows of W1 is added to the accumulator. -/
theorem runB (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S512x129 .f32) (harg6 : arg6.IsWhole) (arg7 : Memref sig .tc .vmem S129x512 .f32) (harg7 : arg7.IsWhole) (arg8 : Memref sig .tc .vmem S512x257 .f32) (harg8 : arg8.IsWhole) (arg9 : Memref sig .tc .vmem S257x512 .f32) (harg9 : arg9.IsWhole) (arg10 : Memref sig .tc .vmem S1x512 .f32) (harg10 : arg10.IsWhole) (arg11 : Memref sig .tc .vmem S512x129 .f32) (harg11 : arg11.IsWhole) (arg12 : Memref sig .tc .vmem S1x129 .f32) (harg12 : arg12.IsWhole) (arg13 : Memref sig .tc .vmem S512x129 .f32) (harg13 : arg13.IsWhole) (arg14 : Memref sig .tc .vmem S512x512 .f32) (harg14 : arg14.IsWhole)
    (hc1 : ¬cond1 i) (hc2 : cond2 i) (hc3 : ¬cond3 i) (hc4 : ¬cond4 i)
    (x2 : Vec F S512x1024 .f32) (x3 : Vec F S1024x512 .f32) (xs : Vec F S512x512 .f32) (E : Set ℕ) (K : PUnit → sProp 𝕄) :
    iprop(owns (c : Thread nD τ) arg2 fullShare x2 ∗ owns (c : Thread nD τ) arg3 fullShare x3 ∗ owns (c : Thread nD τ) arg14 fullShare xs
        ∗ (iprop(owns (c : Thread nD τ) arg2 fullShare x2
            ∗ owns (c : Thread nD τ) arg3 fullShare x3
            ∗ owns (c : Thread nD τ) arg14 fullShare (k0_pay2 xs x2 x3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → Nat) = fun _ => 0 := funext fun a => by fin_cases a <;> rfl
  simp only [cc0__kernel_eq_skeleton]; unfold cc0__kernel_skel
  unfold owns
  iintro ⟨⟨%f2, %hf2, H2⟩, ⟨%f3, %hf3, H3⟩, ⟨%f14, %hf14, H14⟩, Hk⟩
  obtain rfl := harg2.eq_unread hf2; obtain rfl := harg3.eq_unread hf3; obtain rfl := harg14.eq_unread hf14
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H14
  ipureintro
  try sl_unfold_run_names
  rw [View.read_writes_eq_canon _ _ _ (fun y => ⟨_, List.mem_cons_self, View.mem_set_unit_zero hz inb_S512x512_S512x512_0_0 y⟩), View.canon_cons_unit_zero hz]
  (try rw [View.readCov_unit_zero (S := S512x512) arg14.view hz])
  all_goals (first | rfl | simp only [View.readAt_eq_ld, hf2, hf3, hf14, View.ld_unit_zero (S := S512x1024) hz, View.ld_unit_zero (S := S1024x512) hz, View.ld_unit_zero (S := S512x512) hz])

set_option maxHeartbeats 2000000 in
/-- Steps 16 … 30: a tile of st1 against its rows of W1 is added to the accumulator. -/
theorem runC (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S512x129 .f32) (harg6 : arg6.IsWhole) (arg7 : Memref sig .tc .vmem S129x512 .f32) (harg7 : arg7.IsWhole) (arg8 : Memref sig .tc .vmem S512x257 .f32) (harg8 : arg8.IsWhole) (arg9 : Memref sig .tc .vmem S257x512 .f32) (harg9 : arg9.IsWhole) (arg10 : Memref sig .tc .vmem S1x512 .f32) (harg10 : arg10.IsWhole) (arg11 : Memref sig .tc .vmem S512x129 .f32) (harg11 : arg11.IsWhole) (arg12 : Memref sig .tc .vmem S1x129 .f32) (harg12 : arg12.IsWhole) (arg13 : Memref sig .tc .vmem S512x129 .f32) (harg13 : arg13.IsWhole) (arg14 : Memref sig .tc .vmem S512x512 .f32) (harg14 : arg14.IsWhole)
    (hc1 : ¬cond1 i) (hc2 : ¬cond2 i) (hc3 : cond3 i) (hc4 : ¬cond4 i)
    (x4 : Vec F S512x1024 .f32) (x5 : Vec F S1024x512 .f32) (xs : Vec F S512x512 .f32) (E : Set ℕ) (K : PUnit → sProp 𝕄) :
    iprop(owns (c : Thread nD τ) arg4 fullShare x4 ∗ owns (c : Thread nD τ) arg5 fullShare x5 ∗ owns (c : Thread nD τ) arg14 fullShare xs
        ∗ (iprop(owns (c : Thread nD τ) arg4 fullShare x4
            ∗ owns (c : Thread nD τ) arg5 fullShare x5
            ∗ owns (c : Thread nD τ) arg14 fullShare (k0_pay3 xs x4 x5)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → Nat) = fun _ => 0 := funext fun a => by fin_cases a <;> rfl
  simp only [cc0__kernel_eq_skeleton]; unfold cc0__kernel_skel
  unfold owns
  iintro ⟨⟨%f4, %hf4, H4⟩, ⟨%f5, %hf5, H5⟩, ⟨%f14, %hf14, H14⟩, Hk⟩
  obtain rfl := harg4.eq_unread hf4; obtain rfl := harg5.eq_unread hf5; obtain rfl := harg14.eq_unread hf14
  sl_exec (disch := first | exact hc1 | exact hc2 | exact hc3 | exact hc4)
  sl_step
  iapply Hk
  isplitl [H4]
  · iexists _; isplitr; · ipureintro; exact harg4.read_unread _
    iexact H4
  isplitl [H5]
  · iexists _; isplitr; · ipureintro; exact harg5.read_unread _
    iexact H5
  iexists _; isplitr
  swap; · iexact H14
  ipureintro
  try sl_unfold_run_names
  rw [View.read_writes_eq_canon _ _ _ (fun y => ⟨_, List.mem_cons_self, View.mem_set_unit_zero hz inb_S512x512_S512x512_0_0 y⟩), View.canon_cons_unit_zero hz]
  (try rw [View.readCov_unit_zero (S := S512x512) arg14.view hz])
  all_goals (first | rfl | simp only [View.readAt_eq_ld, hf4, hf5, hf14, View.ld_unit_zero (S := S512x1024) hz, View.ld_unit_zero (S := S1024x512) hz, View.ld_unit_zero (S := S512x512) hz])

set_option maxHeartbeats 2000000 in
/-- Last step (i = 31): st1's last tile is added, then the bias, the cut-off at zero, the second product and its bias give the output block, stored whole. -/
theorem runD (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S512x129 .f32) (harg6 : arg6.IsWhole) (arg7 : Memref sig .tc .vmem S129x512 .f32) (harg7 : arg7.IsWhole) (arg8 : Memref sig .tc .vmem S512x257 .f32) (harg8 : arg8.IsWhole) (arg9 : Memref sig .tc .vmem S257x512 .f32) (harg9 : arg9.IsWhole) (arg10 : Memref sig .tc .vmem S1x512 .f32) (harg10 : arg10.IsWhole) (arg11 : Memref sig .tc .vmem S512x129 .f32) (harg11 : arg11.IsWhole) (arg12 : Memref sig .tc .vmem S1x129 .f32) (harg12 : arg12.IsWhole) (arg13 : Memref sig .tc .vmem S512x129 .f32) (harg13 : arg13.IsWhole) (arg14 : Memref sig .tc .vmem S512x512 .f32) (harg14 : arg14.IsWhole)
    (hc1 : ¬cond1 i) (hc2 : ¬cond2 i) (hc3 : cond3 i) (hc4 : cond4 i)
    (x4 : Vec F S512x1024 .f32) (x5 : Vec F S1024x512 .f32) (x10 : Vec F S1x512 .f32) (x11 : Vec F S512x129 .f32) (x12 : Vec F S1x129 .f32) (xs : Vec F S512x512 .f32) (E : Set ℕ) (K : PUnit → sProp 𝕄) :
    iprop(owns (c : Thread nD τ) arg4 fullShare x4 ∗ owns (c : Thread nD τ) arg5 fullShare x5 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs
        ∗ (iprop(owns (c : Thread nD τ) arg4 fullShare x4
            ∗ owns (c : Thread nD τ) arg5 fullShare x5
            ∗ owns (c : Thread nD τ) arg10 fullShare x10
            ∗ owns (c : Thread nD τ) arg11 fullShare x11
            ∗ owns (c : Thread nD τ) arg12 fullShare x12
            ∗ owns (c : Thread nD τ) arg13 fullShare (k0_pay4 (k0_pay3 xs x4 x5) x10 x11 x12)
            ∗ owns (c : Thread nD τ) arg14 fullShare (k0_pay3 xs x4 x5)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → Nat) = fun _ => 0 := funext fun a => by fin_cases a <;> rfl
  simp only [cc0__kernel_eq_skeleton]; unfold cc0__kernel_skel
  unfold owns
  iintro ⟨⟨%f4, %hf4, H4⟩, ⟨%f5, %hf5, H5⟩, ⟨%f10, %hf10, H10⟩, ⟨%f11, %hf11, H11⟩, ⟨%f12, %hf12, H12⟩, ⟨%d13, %f13, -, H13⟩, ⟨%f14, %hf14, H14⟩, Hk⟩
  obtain rfl := harg4.eq_unread hf4; obtain rfl := harg5.eq_unread hf5; obtain rfl := harg10.eq_unread hf10; obtain rfl := harg11.eq_unread hf11; obtain rfl := harg12.eq_unread hf12; obtain rfl := harg14.eq_unread hf14
  sl_exec (disch := first | exact hc1 | exact hc2 | exact hc3 | exact hc4)
  sl_step
  iapply Hk
  isplitl [H4]
  · iexists _; isplitr; · ipureintro; exact harg4.read_unread _
    iexact H4
  isplitl [H5]
  · iexists _; isplitr; · ipureintro; exact harg5.read_unread _
    iexact H5
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    rw [View.read_writes_eq_canon _ _ _ (fun y => ⟨_, List.mem_cons_self, View.mem_set_unit_zero hz inb_S512x129_S512x129_0_0 y⟩), View.canon_cons_unit_zero hz]
    (try rw [View.readCov_unit_zero (S := S512x512) arg14.view hz])
    all_goals (first | rfl | simp only [View.readAt_eq_ld, hf4, hf5, hf10, hf11, hf12, hf14, View.ld_unit_zero (S := S512x1024) hz, View.ld_unit_zero (S := S1024x512) hz, View.ld_unit_zero (S := S1x512) hz, View.ld_unit_zero (S := S512x129) hz, View.ld_unit_zero (S := S1x129) hz, View.ld_unit_zero (S := S512x512) hz])
  iexists _; isplitr
  swap; · iexact H14
  ipureintro
  try sl_unfold_run_names
  rw [View.read_writes_eq_canon _ _ _ (fun y => ⟨_, List.mem_cons_self, View.mem_set_unit_zero hz inb_S512x512_S512x512_0_0 y⟩), View.canon_cons_unit_zero hz]
  (try rw [View.readCov_unit_zero (S := S512x512) arg14.view hz])
  all_goals (first | rfl | simp only [View.readAt_eq_ld, hf4, hf5, hf10, hf11, hf12, hf14, View.ld_unit_zero (S := S512x1024) hz, View.ld_unit_zero (S := S1024x512) hz, View.ld_unit_zero (S := S1x512) hz, View.ld_unit_zero (S := S512x129) hz, View.ld_unit_zero (S := S1x129) hz, View.ld_unit_zero (S := S512x512) hz])

end Cert.Kernel.Hand

end
-- ==== Proof.Kernel.Body.lean ====
/-
  The frame of the program: it runs to the end, nothing faults, and its argument arrays end as they were.

  The proof data says what every staging buffer holds after the body at each of the 64 grid points. An input window's
  buffer holds its block of the array (for the two big operands, whose last block would overhang the array, only
  blocks 0 … 15 are ever visited, and those lie wholly inside). The accumulator is carried from point to point:
  `accAt` is its contents after each point — started afresh whenever the reduction index is 0, a tile of st added
  while it is below 16, a tile of st1 added from 16 on. The output's buffer is stored at reduction index 31 only, from
  the accumulator there, and is left as found everywhere else.
-/
import proofs.«113821_j69922067579329_2_alg».proof.Proof.Kernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The two big operands' blocks never overhang -/

theorem noclip0 : ∀ (t : Fin cfg0.N) (a : Fin 2), (cfg0.win 0).clip (grid0.coords t) a = none :=
  (by decide +kernel : ∀ (t : Fin grid0.N) (a : Fin 2), win0_0.clip (grid0.coords t) a = none)
theorem noclip1 : ∀ (t : Fin cfg0.N) (a : Fin 2), (cfg0.win 1).clip (grid0.coords t) a = none :=
  (by decide +kernel : ∀ (t : Fin grid0.N) (a : Fin 2), win0_1.clip (grid0.coords t) a = none)

/-- st's block at a point, as a whole staging buffer's contents (nothing of the buffer lies outside the block). -/
def blk0 (c : Dev nD) (t : Fin cfg0.N) : Vec F S512x1024 .f32 :=
  win0_0.fill (grid0.coords t) (fun _ => Scalar.ofBits .f32 0#32) (iblk m c 0 t)
/-- W1's block at a point, likewise. -/
def blk1 (c : Dev nD) (t : Fin cfg0.N) : Vec F S1024x512 .f32 :=
  win0_1.fill (grid0.coords t) (fun _ => Scalar.ofBits .f32 0#32) (iblk m c 1 t)

/-! ## The accumulator, point by point -/

/-- The accumulator after a point where the reduction starts: the two short products, plus st's tile there. -/
def startAt (c : Dev nD) (t : Fin cfg0.N) : Vec F S512x512 .f32 :=
  k0_pay2 (k0_pay1 (iblk m c 4 t) (iblk m c 5 t) (iblk m c 6 t) (iblk m c 7 t)) (blk0 m c t) (blk1 m c t)

/-- The accumulator after point `n`. -/
def accAt (c : Dev nD) : (n : ℕ) → n < cfg0.N → Vec F S512x512 .f32
  | 0, hn => startAt m c ⟨0, hn⟩
  | n + 1, hn =>
    if (n + 1) % 32 = 0 then startAt m c ⟨n + 1, hn⟩
    else if (n + 1) % 32 < 16 then k0_pay2 (accAt c n (Nat.lt_of_succ_lt hn)) (blk0 m c ⟨n + 1, hn⟩) (blk1 m c ⟨n + 1, hn⟩)
    else k0_pay3 (accAt c n (Nat.lt_of_succ_lt hn)) (iblk m c 2 ⟨n + 1, hn⟩) (iblk m c 3 ⟨n + 1, hn⟩)

theorem accAt_start (c : Dev nD) (t : Fin cfg0.N) (h0 : t.val % 32 = 0) : accAt m c t.val t.isLt = startAt m c t := by
  obtain ⟨n, hn⟩ := t
  cases n with
  | zero => rfl
  | succ n => exact (if_pos h0).trans rfl

theorem accAt_st (c : Dev nD) (t : Fin cfg0.N) (h0 : ¬t.val % 32 = 0) (h1 : t.val % 32 < 16) :
    accAt m c t.val t.isLt = k0_pay2 (accAt m c (t.val - 1) (Nat.lt_of_le_of_lt (Nat.sub_le _ _) t.isLt)) (blk0 m c t) (blk1 m c t) := by
  obtain ⟨n, hn⟩ := t
  cases n with
  | zero => exact absurd (Nat.zero_mod _) h0
  | succ n => exact (if_neg h0).trans ((if_pos h1).trans rfl)

theorem accAt_st1 (c : Dev nD) (t : Fin cfg0.N) (h0 : ¬t.val % 32 = 0) (h1 : ¬t.val % 32 < 16) :
    accAt m c t.val t.isLt = k0_pay3 (accAt m c (t.val - 1) (Nat.lt_of_le_of_lt (Nat.sub_le _ _) t.isLt)) (iblk m c 2 t) (iblk m c 3 t) := by
  obtain ⟨n, hn⟩ := t
  cases n with
  | zero => exact absurd (Nat.zero_mod _) h0
  | succ n => exact (if_neg h0).trans ((if_neg h1).trans rfl)

/-- The region's own resources before position `n`: at the start the accumulator at anything; afterwards at what the
    point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => k0_pay4 (accAt m c t.val t.isLt) (iblk m c 8 t) (iblk m c 9 t) (iblk m c 10 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = blk0 m c t := by dsimp only [dats]
theorem after0_1 (c : Dev nD) (t : Fin cfg0.N) : (dats m 0 c).after 1 t = blk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = k0_pay4 (accAt m c t.val t.isLt) (iblk m c 8 t) (iblk m c 9 t) (iblk m c 10 t) := by dsimp only [dats]

/-! ## What the body finds in each input's buffer -/

theorem blockOf0 (c : Dev nD) (t : Fin cfg0.N) : (dats m 0 c).blockOf 0 t = iblk m c 0 t := by
  unfold Dat.blockOf iblk; rw [A_eq]
theorem blockOf1 (c : Dev nD) (t : Fin cfg0.N) : (dats m 0 c).blockOf 1 t = iblk m c 1 t := by
  unfold Dat.blockOf iblk; rw [A_eq]

theorem before0_0 (c : Dev nD) (t : Fin cfg0.N) (d) : (dats m 0 c).before 0 t d = blk0 m c t := by
  rw [(dats m 0 c).before_in_eq_fetched 0 rfl (fun _ => rfl)
    (fun t t' _ => funext fun a => (noclip0 t a).trans (noclip0 t' a).symm)
    (fun t => by rw [after0_0, blockOf0]; exact win0_0.cut_fill _ _ _) t d]
  unfold Dat.fetched; rw [blockOf0]
  exact Pipeline.fill_of_clip_none (cfg := cfg0) 0 (grid0.coords t) (noclip0 t) _ _ _
theorem before0_1 (c : Dev nD) (t : Fin cfg0.N) (d) : (dats m 0 c).before 1 t d = blk1 m c t := by
  rw [(dats m 0 c).before_in_eq_fetched 1 rfl (fun _ => rfl)
    (fun t t' _ => funext fun a => (noclip1 t a).trans (noclip1 t' a).symm)
    (fun t => by rw [after0_1, blockOf1]; exact win0_1.cut_fill _ _ _) t d]
  unfold Dat.fetched; rw [blockOf1]
  exact Pipeline.fill_of_clip_none (cfg := cfg0) 1 (grid0.coords t) (noclip1 t) _ _ _
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- An input's buffer is handed back holding what it held. -/
theorem leaves0_0 (c : Dev nD) (t : Fin cfg0.N) :
    (dats m 0 c).leavesExact 0 t = owns (c : Thread nD τ) (ms0_0 t) fullShare (blk0 m c t) := by
  rw [← after0_0]
theorem leaves0_1 (c : Dev nD) (t : Fin cfg0.N) :
    (dats m 0 c).leavesExact 1 t = owns (c : Thread nD τ) (ms0_1 t) fullShare (blk1 m c t) := by
  rw [← after0_1]
theorem leaves0_2 (c : Dev nD) (t : Fin cfg0.N) :
    (dats m 0 c).leavesExact 2 t = owns (c : Thread nD τ) (ms0_2 t) fullShare (iblk m c 2 t) := by
  rw [← after0_2]
theorem leaves0_3 (c : Dev nD) (t : Fin cfg0.N) :
    (dats m 0 c).leavesExact 3 t = owns (c : Thread nD τ) (ms0_3 t) fullShare (iblk m c 3 t) := by
  rw [← after0_3]
theorem leaves0_4 (c : Dev nD) (t : Fin cfg0.N) :
    (dats m 0 c).leavesExact 4 t = owns (c : Thread nD τ) (ms0_4 t) fullShare (iblk m c 4 t) := by
  rw [← after0_4]
theorem leaves0_5 (c : Dev nD) (t : Fin cfg0.N) :
    (dats m 0 c).leavesExact 5 t = owns (c : Thread nD τ) (ms0_5 t) fullShare (iblk m c 5 t) := by
  rw [← after0_5]
theorem leaves0_6 (c : Dev nD) (t : Fin cfg0.N) :
    (dats m 0 c).leavesExact 6 t = owns (c : Thread nD τ) (ms0_6 t) fullShare (iblk m c 6 t) := by
  rw [← after0_6]
theorem leaves0_7 (c : Dev nD) (t : Fin cfg0.N) :
    (dats m 0 c).leavesExact 7 t = owns (c : Thread nD τ) (ms0_7 t) fullShare (iblk m c 7 t) := by
  rw [← after0_7]
theorem leaves0_8 (c : Dev nD) (t : Fin cfg0.N) :
    (dats m 0 c).leavesExact 8 t = owns (c : Thread nD τ) (ms0_8 t) fullShare (iblk m c 8 t) := by
  rw [← after0_8]
theorem leaves0_9 (c : Dev nD) (t : Fin cfg0.N) :
    (dats m 0 c).leavesExact 9 t = owns (c : Thread nD τ) (ms0_9 t) fullShare (iblk m c 9 t) := by
  rw [← after0_9]
theorem leaves0_10 (c : Dev nD) (t : Fin cfg0.N) :
    (dats m 0 c).leavesExact 10 t = owns (c : Thread nD τ) (ms0_10 t) fullShare (iblk m c 10 t) := by
  rw [← after0_10]

/-! ## The body at a grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- At every point the reduction index selects one of the four control cases; the case's run is applied to the buffers
    it touches and the others are carried along untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10]
  have hN : t.val < 64 := lt_of_lt_of_eq t.isLt (show cfg0.N = 64 from N_0)
  by_cases h0 : t.val % 32 = 0
  · have hc1 : cond1 (grid0.coords t) := (hcond1 t).mpr h0
    have hc2 : cond2 (grid0.coords t) := (hcond2 t).mpr (by omega)
    have hc3 : ¬cond3 (grid0.coords t) := fun h => by have := (hcond3 t).mp h; omega
    have hc4 : ¬cond4 (grid0.coords t) := fun h => by have := (hcond4 t).mp h; omega
    rw [Dat.leavesExact_idle (dats m 0 c) 11 t (idleAt11 t hc4) (noFlush11 t hc4)]
    rw [accAt_start m c t h0]; unfold startAt
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (iblk m c 4 t) (iblk m c 5 t) (iblk m c 6 t) (iblk m c 7 t) (blk0 m c t) (blk1 m c t) Set.univ _)
      isplitl [H4]; · iexact H4
      isplitl [H5]; · iexact H5
      isplitl [H6]; · iexact H6
      isplitl [H7]; · iexact H7
      isplitl [H0]; · iexact H0
      isplitl [H1]; · iexact H1
      isplitl [HS]; · iexact HS
      iintro ⟨H4, H5, H6, H7, H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (iblk m c 4 t) (iblk m c 5 t) (iblk m c 6 t) (iblk m c 7 t) (blk0 m c t) (blk1 m c t) Set.univ _)
      isplitl [H4]; · iexact H4
      isplitl [H5]; · iexact H5
      isplitl [H6]; · iexact H6
      isplitl [H7]; · iexact H7
      isplitl [H0]; · iexact H0
      isplitl [H1]; · iexact H1
      isplitl [HS]; · iexists _; iexact HS
      iintro ⟨H4, H5, H6, H7, H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun h => h0 (by rw [h])
    have hc1 : ¬cond1 (grid0.coords t) := fun h => h0 ((hcond1 t).mp h)
    rw [PhiS_castSucc m c t, PhiS_pos m c _ _ hz]
    by_cases h1 : t.val % 32 < 16
    · have hc2 : cond2 (grid0.coords t) := (hcond2 t).mpr h1
      have hc3 : ¬cond3 (grid0.coords t) := fun h => by have := (hcond3 t).mp h; omega
      have hc4 : ¬cond4 (grid0.coords t) := fun h => by have := (hcond4 t).mp h; omega
      rw [Dat.leavesExact_idle (dats m 0 c) 11 t (idleAt11 t hc4) (noFlush11 t hc4)]
      rw [accAt_st m c t h0 h1]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (blk0 m c t) (blk1 m c t) _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · have hc2 : ¬cond2 (grid0.coords t) := fun h => h1 ((hcond2 t).mp h)
      have hc3 : cond3 (grid0.coords t) := (hcond3 t).mpr (by omega)
      rw [accAt_st1 m c t h0 h1]
      by_cases h2 : t.val % 32 = 31
      · have hc4 : cond4 (grid0.coords t) := (hcond4 t).mpr h2
        rw [show (dats m 0 c).leavesExact 11 t = owns (c : Thread nD τ) (ms0_11 t) fullShare ((dats m 0 c).after 11 t) from by
          unfold Dat.leavesExact; rw [liveAt11 t hc4], after0_11, accAt_st1 m c t h0 h1]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (iblk m c 2 t) (iblk m c 3 t) (iblk m c 8 t) (iblk m c 9 t) (iblk m c 10 t) _ Set.univ _)
        isplitl [H2]; · iexact H2
        isplitl [H3]; · iexact H3
        isplitl [H8]; · iexact H8
        isplitl [H9]; · iexact H9
        isplitl [H10]; · iexact H10
        isplitl [H11]; · iexists _; iexact H11
        isplitl [HS]; · iexact HS
        iintro ⟨H2, H3, H8, H9, H10, H11, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · have hc4 : ¬cond4 (grid0.coords t) := fun h => h2 ((hcond4 t).mp h)
        rw [Dat.leavesExact_idle (dats m 0 c) 11 t (idleAt11 t hc4) (noFlush11 t hc4)]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (iblk m c 2 t) (iblk m c 3 t) _ Set.univ _)
        isplitl [H2]; · iexact H2
        isplitl [H3]; · iexact H3
        isplitl [HS]; · iexact HS
        iintro ⟨H2, H3, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]
  · iexists _; iexact HS
  iexact Hg

/-! ## The run and the frame -/

set_option backward.isDefEq.respectTransparency.types false in
/-- Every weakly fair execution of the program terminates, and every final state has each array of the pipeline at
    what the proof data computes and every other buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KernelIdeal.Shared.lean ====
/-
  What the four control cases of the kernel body share: the staging buffers a grid point runs on, the scratch
  accumulator, the four branch conditions as functions of the grid point, decided over the 2 × 32 grid, and where the
  output window is idle.

  With the second grid coordinate written i (0 ≤ i < 32): the first branch (the accumulator is started from the two
  short products) is taken when i = 0, the second (a tile of st is added) when i < 16, the third (a tile of st1 is
  added) when i ≥ 16, the fourth (bias, cut-off at zero, second product, store of the output block) when i = 31. The
  output block is stored, and written back, at i = 31 only.
-/
import proofs.«113821_j69922067579329_2_alg».proof.Proof.Gen.KernelIdeal.Frame
import proofs.«113821_j69922067579329_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x129 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S129x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x257 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S257x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x129 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x129 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x129 .f32 := win0_11.stage (cfg0.slots t 11)
abbrev hs0_11 (t : Fin cfg0.N) : (ms0_11 t).IsWhole := hstage0_11 ((cfg0.slots t 11).cast nbuf0_11)

/-- The accumulator: a whole scratch buffer of the kernel's own, kept from one grid point to the next. -/
abbrev scM : Memref sig .tc .vmem S512x512 .f32 := Memref.whole cc0_scratch0

/-- The region's own resources, spelt out: the accumulator at some contents, and the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The branch conditions -/

/-- i = 0 -/
abbrev cond1 (i : grid0.Coords) : Prop := (Scalar.cmpi .ne (Scalar.extui (Scalar.cmpi .eq (BitVec.ofNat 32 (i 1).val) 0#32)) 0#32) = 1#1
/-- i < 16 -/
abbrev cond2 (i : grid0.Coords) : Prop := (Scalar.cmpi .ne (Scalar.extui (Scalar.cmpi .slt (BitVec.ofNat 32 (i 1).val) 16#32)) 0#32) = 1#1
/-- i ≥ 16 -/
abbrev cond3 (i : grid0.Coords) : Prop := (Scalar.cmpi .ne (Scalar.extui (Scalar.cmpi .sge (BitVec.ofNat 32 (i 1).val) 16#32)) 0#32) = 1#1
/-- i = 31 -/
abbrev cond4 (i : grid0.Coords) : Prop := k0_cond4 i = 1#1

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 32 < 16 :=
  (by decide +kernel : ∀ t : Fin grid0.N, cond2 (grid0.coords t) ↔ t.val % 32 < 16)
theorem hcond3 : ∀ t : Fin cfg0.N, cond3 (grid0.coords t) ↔ 16 ≤ t.val % 32 :=
  (by decide +kernel : ∀ t : Fin grid0.N, cond3 (grid0.coords t) ↔ 16 ≤ t.val % 32)
theorem hcond4 : ∀ t : Fin cfg0.N, cond4 (grid0.coords t) ↔ t.val % 32 = 31 :=
  (by decide +kernel : ∀ t : Fin grid0.N, cond4 (grid0.coords t) ↔ t.val % 32 = 31)

/-! ## Where the output window is idle -/

theorem idleAt11 : ∀ t : Fin cfg0.N, ¬cond4 (grid0.coords t) → cfg0.idle 11 (grid0.coords t) = true := by decide +kernel
theorem noFlush11 : ∀ t : Fin cfg0.N, ¬cond4 (grid0.coords t) → (cfg0.win 11).flush t = false := by decide +kernel
theorem liveAt11 : ∀ t : Fin cfg0.N, cond4 (grid0.coords t) → cfg0.idle 11 (grid0.coords t) = false := by decide +kernel

end Cert.KernelIdeal.Hand

end
-- ==== Proof.KernelIdeal.Runs.lean ====
/-
  The kernel body run once in each of its four control cases, on any whole staging buffers: which buffers it reads,
  and what it leaves in the accumulator and in the output's buffer, as the body's own arithmetic applied to what the
  buffers held (the payload functions `k0_pay1` … `k0_pay4` of the body's four stores).

  Every load and every store of this body moves a whole buffer, so a load reads the buffer's contents and a store
  leaves exactly its payload.
-/
import proofs.«113821_j69922067579329_2_alg».proof.Proof.KernelIdeal.Shared
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
set_option maxHeartbeats 2000000 in
/-- First reduction step (i = 0): the accumulator, whatever it held, is started from the two short products and st's first tile is added. -/
theorem runA (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S512x129 .f32) (harg6 : arg6.IsWhole) (arg7 : Memref sig .tc .vmem S129x512 .f32) (harg7 : arg7.IsWhole) (arg8 : Memref sig .tc .vmem S512x257 .f32) (harg8 : arg8.IsWhole) (arg9 : Memref sig .tc .vmem S257x512 .f32) (harg9 : arg9.IsWhole) (arg10 : Memref sig .tc .vmem S1x512 .f32) (harg10 : arg10.IsWhole) (arg11 : Memref sig .tc .vmem S512x129 .f32) (harg11 : arg11.IsWhole) (arg12 : Memref sig .tc .vmem S1x129 .f32) (harg12 : arg12.IsWhole) (arg13 : Memref sig .tc .vmem S512x129 .f32) (harg13 : arg13.IsWhole) (arg14 : Memref sig .tc .vmem S512x512 .f32) (harg14 : arg14.IsWhole)
    (hc1 : cond1 i) (hc2 : cond2 i) (hc3 : ¬cond3 i) (hc4 : ¬cond4 i)
    (x6 : Vec F S512x129 .f32) (x7 : Vec F S129x512 .f32) (x8 : Vec F S512x257 .f32) (x9 : Vec F S257x512 .f32) (x2 : Vec F S512x1024 .f32) (x3 : Vec F S1024x512 .f32) (E : Set ℕ) (K : PUnit → sProp 𝕄) :
    iprop(owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg2 fullShare x2 ∗ owns (c : Thread nD τ) arg3 fullShare x3 ∗ (∃ d, owns (c : Thread nD τ) arg14 fullShare d)
        ∗ (iprop(owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg2 fullShare x2
            ∗ owns (c : Thread nD τ) arg3 fullShare x3
            ∗ owns (c : Thread nD τ) arg14 fullShare (k0_pay2 (k0_pay1 x6 x7 x8 x9) x2 x3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → Nat) = fun _ => 0 := funext fun a => by fin_cases a <;> rfl
  simp only [cc0__kernel_eq_skeleton]; unfold cc0__kernel_skel
  unfold owns
  iintro ⟨⟨%f6, %hf6, H6⟩, ⟨%f7, %hf7, H7⟩, ⟨%f8, %hf8, H8⟩, ⟨%f9, %hf9, H9⟩, ⟨%f2, %hf2, H2⟩, ⟨%f3, %hf3, H3⟩, ⟨%d14, %f14, -, H14⟩, Hk⟩
  obtain rfl := harg6.eq_unread hf6; obtain rfl := harg7.eq_unread hf7; obtain rfl := harg8.eq_unread hf8; obtain rfl := harg9.eq_unread hf9; obtain rfl := harg2.eq_unread hf2; obtain rfl := harg3.eq_unread hf3
  sl_exec (disch := first | exact hc1 | exact hc2 | exact hc3 | exact hc4)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H2]
  · iexists _; isplitr; · ipureintro; exact harg2.read_unread _
    iexact H2
  isplitl [H3]
  · iexists _; isplitr; · ipureintro; exact harg3.read_unread _
    iexact H3
  iexists _; isplitr
  swap; · iexact H14
  ipureintro
  try sl_unfold_run_names
  rw [View.read_writes_eq_canon _ _ _ (fun y => ⟨_, List.mem_cons_self, View.mem_set_unit_zero hz inb_S512x512_S512x512_0_0 y⟩), View.canon_cons_unit_zero hz]
  (try rw [View.readCov_unit_zero (S := S512x512) arg14.view hz])
  all_goals (first | rfl | simp only [View.readAt_eq_ld, hf6, hf7, hf8, hf9, hf2, hf3, View.ld_unit_zero (S := S512x129) hz, View.ld_unit_zero (S := S129x512) hz, View.ld_unit_zero (S := S512x257) hz, View.ld_unit_zero (S := S257x512) hz, View.ld_unit_zero (S := S512x1024) hz, View.ld_unit_zero (S := S1024x512) hz, View.ld_unit_zero (S := S512x512) hz])

set_option maxHeartbeats 2000000 in
/-- Steps 1 … 15: a tile of st against its rows of W1 is added to the accumulator. -/
theorem runB (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S512x129 .f32) (harg6 : arg6.IsWhole) (arg7 : Memref sig .tc .vmem S129x512 .f32) (harg7 : arg7.IsWhole) (arg8 : Memref sig .tc .vmem S512x257 .f32) (harg8 : arg8.IsWhole) (arg9 : Memref sig .tc .vmem S257x512 .f32) (harg9 : arg9.IsWhole) (arg10 : Memref sig .tc .vmem S1x512 .f32) (harg10 : arg10.IsWhole) (arg11 : Memref sig .tc .vmem S512x129 .f32) (harg11 : arg11.IsWhole) (arg12 : Memref sig .tc .vmem S1x129 .f32) (harg12 : arg12.IsWhole) (arg13 : Memref sig .tc .vmem S512x129 .f32) (harg13 : arg13.IsWhole) (arg14 : Memref sig .tc .vmem S512x512 .f32) (harg14 : arg14.IsWhole)
    (hc1 : ¬cond1 i) (hc2 : cond2 i) (hc3 : ¬cond3 i) (hc4 : ¬cond4 i)
    (x2 : Vec F S512x1024 .f32) (x3 : Vec F S1024x512 .f32) (xs : Vec F S512x512 .f32) (E : Set ℕ) (K : PUnit → sProp 𝕄) :
    iprop(owns (c : Thread nD τ) arg2 fullShare x2 ∗ owns (c : Thread nD τ) arg3 fullShare x3 ∗ owns (c : Thread nD τ) arg14 fullShare xs
        ∗ (iprop(owns (c : Thread nD τ) arg2 fullShare x2
            ∗ owns (c : Thread nD τ) arg3 fullShare x3
            ∗ owns (c : Thread nD τ) arg14 fullShare (k0_pay2 xs x2 x3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → Nat) = fun _ => 0 := funext fun a => by fin_cases a <;> rfl
  simp only [cc0__kernel_eq_skeleton]; unfold cc0__kernel_skel
  unfold owns
  iintro ⟨⟨%f2, %hf2, H2⟩, ⟨%f3, %hf3, H3⟩, ⟨%f14, %hf14, H14⟩, Hk⟩
  obtain rfl := harg2.eq_unread hf2; obtain rfl := harg3.eq_unread hf3; obtain rfl := harg14.eq_unread hf14
  sl_exec (disch := first | exact hc1 | exact hc2 | exact hc3 | exact hc4)
  sl_step
  iapply Hk
  isplitl [H2]
  · iexists _; isplitr; · ipureintro; exact harg2.read_unread _
    iexact H2
  isplitl [H3]
  · iexists _; isplitr; · ipureintro; exact harg3.read_unread _
    iexact H3
  iexists _; isplitr
  swap; · iexact H14
  ipureintro
  try sl_unfold_run_names
  rw [View.read_writes_eq_canon _ _ _ (fun y => ⟨_, List.mem_cons_self, View.mem_set_unit_zero hz inb_S512x512_S512x512_0_0 y⟩), View.canon_cons_unit_zero hz]
  (try rw [View.readCov_unit_zero (S := S512x512) arg14.view hz])
  all_goals (first | rfl | simp only [View.readAt_eq_ld, hf2, hf3, hf14, View.ld_unit_zero (S := S512x1024) hz, View.ld_unit_zero (S := S1024x512) hz, View.ld_unit_zero (S := S512x512) hz])

set_option maxHeartbeats 2000000 in
/-- Steps 16 … 30: a tile of st1 against its rows of W1 is added to the accumulator. -/
theorem runC (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S512x129 .f32) (harg6 : arg6.IsWhole) (arg7 : Memref sig .tc .vmem S129x512 .f32) (harg7 : arg7.IsWhole) (arg8 : Memref sig .tc .vmem S512x257 .f32) (harg8 : arg8.IsWhole) (arg9 : Memref sig .tc .vmem S257x512 .f32) (harg9 : arg9.IsWhole) (arg10 : Memref sig .tc .vmem S1x512 .f32) (harg10 : arg10.IsWhole) (arg11 : Memref sig .tc .vmem S512x129 .f32) (harg11 : arg11.IsWhole) (arg12 : Memref sig .tc .vmem S1x129 .f32) (harg12 : arg12.IsWhole) (arg13 : Memref sig .tc .vmem S512x129 .f32) (harg13 : arg13.IsWhole) (arg14 : Memref sig .tc .vmem S512x512 .f32) (harg14 : arg14.IsWhole)
    (hc1 : ¬cond1 i) (hc2 : ¬cond2 i) (hc3 : cond3 i) (hc4 : ¬cond4 i)
    (x4 : Vec F S512x1024 .f32) (x5 : Vec F S1024x512 .f32) (xs : Vec F S512x512 .f32) (E : Set ℕ) (K : PUnit → sProp 𝕄) :
    iprop(owns (c : Thread nD τ) arg4 fullShare x4 ∗ owns (c : Thread nD τ) arg5 fullShare x5 ∗ owns (c : Thread nD τ) arg14 fullShare xs
        ∗ (iprop(owns (c : Thread nD τ) arg4 fullShare x4
            ∗ owns (c : Thread nD τ) arg5 fullShare x5
            ∗ owns (c : Thread nD τ) arg14 fullShare (k0_pay3 xs x4 x5)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → Nat) = fun _ => 0 := funext fun a => by fin_cases a <;> rfl
  simp only [cc0__kernel_eq_skeleton]; unfold cc0__kernel_skel
  unfold owns
  iintro ⟨⟨%f4, %hf4, H4⟩, ⟨%f5, %hf5, H5⟩, ⟨%f14, %hf14, H14⟩, Hk⟩
  obtain rfl := harg4.eq_unread hf4; obtain rfl := harg5.eq_unread hf5; obtain rfl := harg14.eq_unread hf14
  sl_exec (disch := first | exact hc1 | exact hc2 | exact hc3 | exact hc4)
  sl_step
  iapply Hk
  isplitl [H4]
  · iexists _; isplitr; · ipureintro; exact harg4.read_unread _
    iexact H4
  isplitl [H5]
  · iexists _; isplitr; · ipureintro; exact harg5.read_unread _
    iexact H5
  iexists _; isplitr
  swap; · iexact H14
  ipureintro
  try sl_unfold_run_names
  rw [View.read_writes_eq_canon _ _ _ (fun y => ⟨_, List.mem_cons_self, View.mem_set_unit_zero hz inb_S512x512_S512x512_0_0 y⟩), View.canon_cons_unit_zero hz]
  (try rw [View.readCov_unit_zero (S := S512x512) arg14.view hz])
  all_goals (first | rfl | simp only [View.readAt_eq_ld, hf4, hf5, hf14, View.ld_unit_zero (S := S512x1024) hz, View.ld_unit_zero (S := S1024x512) hz, View.ld_unit_zero (S := S512x512) hz])

set_option maxHeartbeats 2000000 in
/-- Last step (i = 31): st1's last tile is added, then the bias, the cut-off at zero, the second product and its bias give the output block, stored whole. -/
theorem runD (c : Dev nD) (i : grid0.Coords) (arg2 : Memref sig .tc .vmem S512x1024 .f32) (harg2 : arg2.IsWhole) (arg3 : Memref sig .tc .vmem S1024x512 .f32) (harg3 : arg3.IsWhole) (arg4 : Memref sig .tc .vmem S512x1024 .f32) (harg4 : arg4.IsWhole) (arg5 : Memref sig .tc .vmem S1024x512 .f32) (harg5 : arg5.IsWhole) (arg6 : Memref sig .tc .vmem S512x129 .f32) (harg6 : arg6.IsWhole) (arg7 : Memref sig .tc .vmem S129x512 .f32) (harg7 : arg7.IsWhole) (arg8 : Memref sig .tc .vmem S512x257 .f32) (harg8 : arg8.IsWhole) (arg9 : Memref sig .tc .vmem S257x512 .f32) (harg9 : arg9.IsWhole) (arg10 : Memref sig .tc .vmem S1x512 .f32) (harg10 : arg10.IsWhole) (arg11 : Memref sig .tc .vmem S512x129 .f32) (harg11 : arg11.IsWhole) (arg12 : Memref sig .tc .vmem S1x129 .f32) (harg12 : arg12.IsWhole) (arg13 : Memref sig .tc .vmem S512x129 .f32) (harg13 : arg13.IsWhole) (arg14 : Memref sig .tc .vmem S512x512 .f32) (harg14 : arg14.IsWhole)
    (hc1 : ¬cond1 i) (hc2 : ¬cond2 i) (hc3 : cond3 i) (hc4 : cond4 i)
    (x4 : Vec F S512x1024 .f32) (x5 : Vec F S1024x512 .f32) (x10 : Vec F S1x512 .f32) (x11 : Vec F S512x129 .f32) (x12 : Vec F S1x129 .f32) (xs : Vec F S512x512 .f32) (E : Set ℕ) (K : PUnit → sProp 𝕄) :
    iprop(owns (c : Thread nD τ) arg4 fullShare x4 ∗ owns (c : Thread nD τ) arg5 fullShare x5 ∗ owns (c : Thread nD τ) arg10 fullShare x10 ∗ owns (c : Thread nD τ) arg11 fullShare x11 ∗ owns (c : Thread nD τ) arg12 fullShare x12 ∗ (∃ d, owns (c : Thread nD τ) arg13 fullShare d) ∗ owns (c : Thread nD τ) arg14 fullShare xs
        ∗ (iprop(owns (c : Thread nD τ) arg4 fullShare x4
            ∗ owns (c : Thread nD τ) arg5 fullShare x5
            ∗ owns (c : Thread nD τ) arg10 fullShare x10
            ∗ owns (c : Thread nD τ) arg11 fullShare x11
            ∗ owns (c : Thread nD τ) arg12 fullShare x12
            ∗ owns (c : Thread nD τ) arg13 fullShare (k0_pay4 (k0_pay3 xs x4 x5) x10 x11 x12)
            ∗ owns (c : Thread nD τ) arg14 fullShare (k0_pay3 xs x4 x5)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → Nat) = fun _ => 0 := funext fun a => by fin_cases a <;> rfl
  simp only [cc0__kernel_eq_skeleton]; unfold cc0__kernel_skel
  unfold owns
  iintro ⟨⟨%f4, %hf4, H4⟩, ⟨%f5, %hf5, H5⟩, ⟨%f10, %hf10, H10⟩, ⟨%f11, %hf11, H11⟩, ⟨%f12, %hf12, H12⟩, ⟨%d13, %f13, -, H13⟩, ⟨%f14, %hf14, H14⟩, Hk⟩
  obtain rfl := harg4.eq_unread hf4; obtain rfl := harg5.eq_unread hf5; obtain rfl := harg10.eq_unread hf10; obtain rfl := harg11.eq_unread hf11; obtain rfl := harg12.eq_unread hf12; obtain rfl := harg14.eq_unread hf14
  sl_exec (disch := first | exact hc1 | exact hc2 | exact hc3 | exact hc4)
  sl_step
  iapply Hk
  isplitl [H4]
  · iexists _; isplitr; · ipureintro; exact harg4.read_unread _
    iexact H4
  isplitl [H5]
  · iexists _; isplitr; · ipureintro; exact harg5.read_unread _
    iexact H5
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    rw [View.read_writes_eq_canon _ _ _ (fun y => ⟨_, List.mem_cons_self, View.mem_set_unit_zero hz inb_S512x129_S512x129_0_0 y⟩), View.canon_cons_unit_zero hz]
    (try rw [View.readCov_unit_zero (S := S512x512) arg14.view hz])
    all_goals (first | rfl | simp only [View.readAt_eq_ld, hf4, hf5, hf10, hf11, hf12, hf14, View.ld_unit_zero (S := S512x1024) hz, View.ld_unit_zero (S := S1024x512) hz, View.ld_unit_zero (S := S1x512) hz, View.ld_unit_zero (S := S512x129) hz, View.ld_unit_zero (S := S1x129) hz, View.ld_unit_zero (S := S512x512) hz])
  iexists _; isplitr
  swap; · iexact H14
  ipureintro
  try sl_unfold_run_names
  rw [View.read_writes_eq_canon _ _ _ (fun y => ⟨_, List.mem_cons_self, View.mem_set_unit_zero hz inb_S512x512_S512x512_0_0 y⟩), View.canon_cons_unit_zero hz]
  (try rw [View.readCov_unit_zero (S := S512x512) arg14.view hz])
  all_goals (first | rfl | simp only [View.readAt_eq_ld, hf4, hf5, hf10, hf11, hf12, hf14, View.ld_unit_zero (S := S512x1024) hz, View.ld_unit_zero (S := S1024x512) hz, View.ld_unit_zero (S := S1x512) hz, View.ld_unit_zero (S := S512x129) hz, View.ld_unit_zero (S := S1x129) hz, View.ld_unit_zero (S := S512x512) hz])

end Cert.KernelIdeal.Hand

end
-- ==== Proof.KernelIdeal.Body.lean ====
/-
  The frame of the program: it runs to the end, nothing faults, and its argument arrays end as they were.

  The proof data says what every staging buffer holds after the body at each of the 64 grid points. An input window's
  buffer holds its block of the array (for the two big operands, whose last block would overhang the array, only
  blocks 0 … 15 are ever visited, and those lie wholly inside). The accumulator is carried from point to point:
  `accAt` is its contents after each point — started afresh whenever the reduction index is 0, a tile of st added
  while it is below 16, a tile of st1 added from 16 on. The output's buffer is stored at reduction index 31 only, from
  the accumulator there, and is left as found everywhere else.
-/
import proofs.«113821_j69922067579329_2_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The two big operands' blocks never overhang -/

theorem noclip0 : ∀ (t : Fin cfg0.N) (a : Fin 2), (cfg0.win 0).clip (grid0.coords t) a = none :=
  (by decide +kernel : ∀ (t : Fin grid0.N) (a : Fin 2), win0_0.clip (grid0.coords t) a = none)
theorem noclip1 : ∀ (t : Fin cfg0.N) (a : Fin 2), (cfg0.win 1).clip (grid0.coords t) a = none :=
  (by decide +kernel : ∀ (t : Fin grid0.N) (a : Fin 2), win0_1.clip (grid0.coords t) a = none)

/-- st's block at a point, as a whole staging buffer's contents (nothing of the buffer lies outside the block). -/
def blk0 (c : Dev nD) (t : Fin cfg0.N) : Vec F S512x1024 .f32 :=
  win0_0.fill (grid0.coords t) (fun _ => Scalar.ofBits .f32 0#32) (iblk m c 0 t)
/-- W1's block at a point, likewise. -/
def blk1 (c : Dev nD) (t : Fin cfg0.N) : Vec F S1024x512 .f32 :=
  win0_1.fill (grid0.coords t) (fun _ => Scalar.ofBits .f32 0#32) (iblk m c 1 t)

/-! ## The accumulator, point by point -/

/-- The accumulator after a point where the reduction starts: the two short products, plus st's tile there. -/
def startAt (c : Dev nD) (t : Fin cfg0.N) : Vec F S512x512 .f32 :=
  k0_pay2 (k0_pay1 (iblk m c 4 t) (iblk m c 5 t) (iblk m c 6 t) (iblk m c 7 t)) (blk0 m c t) (blk1 m c t)

/-- The accumulator after point `n`. -/
def accAt (c : Dev nD) : (n : ℕ) → n < cfg0.N → Vec F S512x512 .f32
  | 0, hn => startAt m c ⟨0, hn⟩
  | n + 1, hn =>
    if (n + 1) % 32 = 0 then startAt m c ⟨n + 1, hn⟩
    else if (n + 1) % 32 < 16 then k0_pay2 (accAt c n (Nat.lt_of_succ_lt hn)) (blk0 m c ⟨n + 1, hn⟩) (blk1 m c ⟨n + 1, hn⟩)
    else k0_pay3 (accAt c n (Nat.lt_of_succ_lt hn)) (iblk m c 2 ⟨n + 1, hn⟩) (iblk m c 3 ⟨n + 1, hn⟩)

theorem accAt_start (c : Dev nD) (t : Fin cfg0.N) (h0 : t.val % 32 = 0) : accAt m c t.val t.isLt = startAt m c t := by
  obtain ⟨n, hn⟩ := t
  cases n with
  | zero => rfl
  | succ n => exact (if_pos h0).trans rfl

theorem accAt_st (c : Dev nD) (t : Fin cfg0.N) (h0 : ¬t.val % 32 = 0) (h1 : t.val % 32 < 16) :
    accAt m c t.val t.isLt = k0_pay2 (accAt m c (t.val - 1) (Nat.lt_of_le_of_lt (Nat.sub_le _ _) t.isLt)) (blk0 m c t) (blk1 m c t) := by
  obtain ⟨n, hn⟩ := t
  cases n with
  | zero => exact absurd (Nat.zero_mod _) h0
  | succ n => exact (if_neg h0).trans ((if_pos h1).trans rfl)

theorem accAt_st1 (c : Dev nD) (t : Fin cfg0.N) (h0 : ¬t.val % 32 = 0) (h1 : ¬t.val % 32 < 16) :
    accAt m c t.val t.isLt = k0_pay3 (accAt m c (t.val - 1) (Nat.lt_of_le_of_lt (Nat.sub_le _ _) t.isLt)) (iblk m c 2 t) (iblk m c 3 t) := by
  obtain ⟨n, hn⟩ := t
  cases n with
  | zero => exact absurd (Nat.zero_mod _) h0
  | succ n => exact (if_neg h0).trans ((if_neg h1).trans rfl)

/-- The region's own resources before position `n`: at the start the accumulator at anything; afterwards at what the
    point before left in it. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => blk1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => k0_pay4 (accAt m c t.val t.isLt) (iblk m c 8 t) (iblk m c 9 t) (iblk m c 10 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = blk0 m c t := by dsimp only [dats]
theorem after0_1 (c : Dev nD) (t : Fin cfg0.N) : (dats m 0 c).after 1 t = blk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = k0_pay4 (accAt m c t.val t.isLt) (iblk m c 8 t) (iblk m c 9 t) (iblk m c 10 t) := by dsimp only [dats]

/-! ## What the body finds in each input's buffer -/

theorem blockOf0 (c : Dev nD) (t : Fin cfg0.N) : (dats m 0 c).blockOf 0 t = iblk m c 0 t := by
  unfold Dat.blockOf iblk; rw [A_eq]
theorem blockOf1 (c : Dev nD) (t : Fin cfg0.N) : (dats m 0 c).blockOf 1 t = iblk m c 1 t := by
  unfold Dat.blockOf iblk; rw [A_eq]

theorem before0_0 (c : Dev nD) (t : Fin cfg0.N) (d) : (dats m 0 c).before 0 t d = blk0 m c t := by
  rw [(dats m 0 c).before_in_eq_fetched 0 rfl (fun _ => rfl)
    (fun t t' _ => funext fun a => (noclip0 t a).trans (noclip0 t' a).symm)
    (fun t => by rw [after0_0, blockOf0]; exact win0_0.cut_fill _ _ _) t d]
  unfold Dat.fetched; rw [blockOf0]
  exact Pipeline.fill_of_clip_none (cfg := cfg0) 0 (grid0.coords t) (noclip0 t) _ _ _
theorem before0_1 (c : Dev nD) (t : Fin cfg0.N) (d) : (dats m 0 c).before 1 t d = blk1 m c t := by
  rw [(dats m 0 c).before_in_eq_fetched 1 rfl (fun _ => rfl)
    (fun t t' _ => funext fun a => (noclip1 t a).trans (noclip1 t' a).symm)
    (fun t => by rw [after0_1, blockOf1]; exact win0_1.cut_fill _ _ _) t d]
  unfold Dat.fetched; rw [blockOf1]
  exact Pipeline.fill_of_clip_none (cfg := cfg0) 1 (grid0.coords t) (noclip1 t) _ _ _
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- An input's buffer is handed back holding what it held. -/
theorem leaves0_0 (c : Dev nD) (t : Fin cfg0.N) :
    (dats m 0 c).leavesExact 0 t = owns (c : Thread nD τ) (ms0_0 t) fullShare (blk0 m c t) := by
  rw [← after0_0]
theorem leaves0_1 (c : Dev nD) (t : Fin cfg0.N) :
    (dats m 0 c).leavesExact 1 t = owns (c : Thread nD τ) (ms0_1 t) fullShare (blk1 m c t) := by
  rw [← after0_1]
theorem leaves0_2 (c : Dev nD) (t : Fin cfg0.N) :
    (dats m 0 c).leavesExact 2 t = owns (c : Thread nD τ) (ms0_2 t) fullShare (iblk m c 2 t) := by
  rw [← after0_2]
theorem leaves0_3 (c : Dev nD) (t : Fin cfg0.N) :
    (dats m 0 c).leavesExact 3 t = owns (c : Thread nD τ) (ms0_3 t) fullShare (iblk m c 3 t) := by
  rw [← after0_3]
theorem leaves0_4 (c : Dev nD) (t : Fin cfg0.N) :
    (dats m 0 c).leavesExact 4 t = owns (c : Thread nD τ) (ms0_4 t) fullShare (iblk m c 4 t) := by
  rw [← after0_4]
theorem leaves0_5 (c : Dev nD) (t : Fin cfg0.N) :
    (dats m 0 c).leavesExact 5 t = owns (c : Thread nD τ) (ms0_5 t) fullShare (iblk m c 5 t) := by
  rw [← after0_5]
theorem leaves0_6 (c : Dev nD) (t : Fin cfg0.N) :
    (dats m 0 c).leavesExact 6 t = owns (c : Thread nD τ) (ms0_6 t) fullShare (iblk m c 6 t) := by
  rw [← after0_6]
theorem leaves0_7 (c : Dev nD) (t : Fin cfg0.N) :
    (dats m 0 c).leavesExact 7 t = owns (c : Thread nD τ) (ms0_7 t) fullShare (iblk m c 7 t) := by
  rw [← after0_7]
theorem leaves0_8 (c : Dev nD) (t : Fin cfg0.N) :
    (dats m 0 c).leavesExact 8 t = owns (c : Thread nD τ) (ms0_8 t) fullShare (iblk m c 8 t) := by
  rw [← after0_8]
theorem leaves0_9 (c : Dev nD) (t : Fin cfg0.N) :
    (dats m 0 c).leavesExact 9 t = owns (c : Thread nD τ) (ms0_9 t) fullShare (iblk m c 9 t) := by
  rw [← after0_9]
theorem leaves0_10 (c : Dev nD) (t : Fin cfg0.N) :
    (dats m 0 c).leavesExact 10 t = owns (c : Thread nD τ) (ms0_10 t) fullShare (iblk m c 10 t) := by
  rw [← after0_10]

/-! ## The body at a grid point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4800000 in
/-- At every point the reduction index selects one of the four control cases; the case's run is applied to the buffers
    it touches and the others are carried along untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10]
  have hN : t.val < 64 := lt_of_lt_of_eq t.isLt (show cfg0.N = 64 from N_0)
  by_cases h0 : t.val % 32 = 0
  · have hc1 : cond1 (grid0.coords t) := (hcond1 t).mpr h0
    have hc2 : cond2 (grid0.coords t) := (hcond2 t).mpr (by omega)
    have hc3 : ¬cond3 (grid0.coords t) := fun h => by have := (hcond3 t).mp h; omega
    have hc4 : ¬cond4 (grid0.coords t) := fun h => by have := (hcond4 t).mp h; omega
    rw [Dat.leavesExact_idle (dats m 0 c) 11 t (idleAt11 t hc4) (noFlush11 t hc4)]
    rw [accAt_start m c t h0]; unfold startAt
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (iblk m c 4 t) (iblk m c 5 t) (iblk m c 6 t) (iblk m c 7 t) (blk0 m c t) (blk1 m c t) Set.univ _)
      isplitl [H4]; · iexact H4
      isplitl [H5]; · iexact H5
      isplitl [H6]; · iexact H6
      isplitl [H7]; · iexact H7
      isplitl [H0]; · iexact H0
      isplitl [H1]; · iexact H1
      isplitl [HS]; · iexact HS
      iintro ⟨H4, H5, H6, H7, H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (iblk m c 4 t) (iblk m c 5 t) (iblk m c 6 t) (iblk m c 7 t) (blk0 m c t) (blk1 m c t) Set.univ _)
      isplitl [H4]; · iexact H4
      isplitl [H5]; · iexact H5
      isplitl [H6]; · iexact H6
      isplitl [H7]; · iexact H7
      isplitl [H0]; · iexact H0
      isplitl [H1]; · iexact H1
      isplitl [HS]; · iexists _; iexact HS
      iintro ⟨H4, H5, H6, H7, H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
  · have hz : t.val ≠ 0 := fun h => h0 (by rw [h])
    have hc1 : ¬cond1 (grid0.coords t) := fun h => h0 ((hcond1 t).mp h)
    rw [PhiS_castSucc m c t, PhiS_pos m c _ _ hz]
    by_cases h1 : t.val % 32 < 16
    · have hc2 : cond2 (grid0.coords t) := (hcond2 t).mpr h1
      have hc3 : ¬cond3 (grid0.coords t) := fun h => by have := (hcond3 t).mp h; omega
      have hc4 : ¬cond4 (grid0.coords t) := fun h => by have := (hcond4 t).mp h; omega
      rw [Dat.leavesExact_idle (dats m 0 c) 11 t (idleAt11 t hc4) (noFlush11 t hc4)]
      rw [accAt_st m c t h0 h1]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (blk0 m c t) (blk1 m c t) _ Set.univ _)
      isplitl [H0]; · iexact H0
      isplitl [H1]; · iexact H1
      isplitl [HS]; · iexact HS
      iintro ⟨H0, H1, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11
    · have hc2 : ¬cond2 (grid0.coords t) := fun h => h1 ((hcond2 t).mp h)
      have hc3 : cond3 (grid0.coords t) := (hcond3 t).mpr (by omega)
      rw [accAt_st1 m c t h0 h1]
      by_cases h2 : t.val % 32 = 31
      · have hc4 : cond4 (grid0.coords t) := (hcond4 t).mpr h2
        rw [show (dats m 0 c).leavesExact 11 t = owns (c : Thread nD τ) (ms0_11 t) fullShare ((dats m 0 c).after 11 t) from by
          unfold Dat.leavesExact; rw [liveAt11 t hc4], after0_11, accAt_st1 m c t h0 h1]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (iblk m c 2 t) (iblk m c 3 t) (iblk m c 8 t) (iblk m c 9 t) (iblk m c 10 t) _ Set.univ _)
        isplitl [H2]; · iexact H2
        isplitl [H3]; · iexact H3
        isplitl [H8]; · iexact H8
        isplitl [H9]; · iexact H9
        isplitl [H10]; · iexact H10
        isplitl [H11]; · iexists _; iexact H11
        isplitl [HS]; · iexact HS
        iintro ⟨H2, H3, H8, H9, H10, H11, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexact H11
      · have hc4 : ¬cond4 (grid0.coords t) := fun h => h2 ((hcond4 t).mp h)
        rw [Dat.leavesExact_idle (dats m 0 c) 11 t (idleAt11 t hc4) (noFlush11 t hc4)]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _) hc1 hc2 hc3 hc4 (iblk m c 2 t) (iblk m c 3 t) _ Set.univ _)
        isplitl [H2]; · iexact H2
        isplitl [H3]; · iexact H3
        isplitl [HS]; · iexact HS
        iintro ⟨H2, H3, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        iexists _; iexact H11

/-- The body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA0_eq]
  iintro ⟨HS, Hg⟩
  isplitl [HS]
  · iexists _; iexact HS
  iexact Hg

/-! ## The run and the frame -/

set_option backward.isDefEq.respectTransparency.types false in
/-- Every weakly fair execution of the program terminates, and every final state has each array of the pipeline at
    what the proof data computes and every other buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.Spec.lean ====
/-
  The function both programs compute, written once over the extended reals.

  The inputs are st [1024, 16641], av [1024, 129], st1 [1024, 16384], a weight matrix W1 [33154, 512] whose rows are
  ordered as the columns of the concatenation (st | av | st1), a bias b1 [512], a second weight matrix W2 [512, 129]
  and a bias b2 [129]. The result is the two-layer perceptron

      out (b, o) = Σ_h max (Σ_k x (b, k) · W1 (k, h) + b1 h, 0) · W2 (h, o) + b2 o,      x = (st | av | st1),

  flattened row by row. The inner sum over the 33154 columns is written here the way a tiled reduction walks it:
  first the 129 columns of av and the last 257 columns of st (`base`), then sixteen tiles of 1024 columns of st,
  then sixteen tiles of 1024 columns of st1 (`accUpTo`, the running value after each tile). Addition on the extended
  reals is commutative and associative, so this is the same number as the sum over the columns in their natural
  order; nothing here needs the inputs to be finite.

  Every array is continued by zero outside its extents (`ext1`, `ext2`), so that all coordinates are natural numbers
  and all sums run over `Finset.range`.
-/
import Idealize.ShloMosaic.PureOps.Ideal
import Idealize.ShloMosaic.Lib.ValueIdx

noncomputable section

open scoped BigOperators

namespace Cert.Spec

open Idealize.ShloMosaic Idealize.ShloMosaic.ValueIdx

/-- A two-axis array of extended reals continued by zero outside its extents. -/
def ext2 {a b : ℕ} (x : (⟨2, ![a, b]⟩ : Shape).Idx → EReal) (p q : ℕ) : EReal :=
  if h : p < a ∧ q < b then x (ix2 ⟨p, h.1⟩ ⟨q, h.2⟩) else 0

/-- Inside the extents the continuation is the array. -/
theorem ext2_ix2 {a b : ℕ} (x : (⟨2, ![a, b]⟩ : Shape).Idx → EReal) (p : Fin a) (q : Fin b) :
    ext2 x p.val q.val = x (ix2 p q) := by
  unfold ext2; rw [dif_pos ⟨p.isLt, q.isLt⟩]

/-- The same at coordinates given as naturals with their bounds. -/
theorem ext2_of_lt {a b : ℕ} (x : (⟨2, ![a, b]⟩ : Shape).Idx → EReal) {p q : ℕ} (hp : p < a) (hq : q < b) :
    ext2 x p q = x (ix2 ⟨p, hp⟩ ⟨q, hq⟩) := by
  unfold ext2; rw [dif_pos ⟨hp, hq⟩]

/-- A one-axis array continued by zero outside its extent. -/
def ext1 {a : ℕ} (x : (⟨1, ![a]⟩ : Shape).Idx → EReal) (p : ℕ) : EReal :=
  if h : p < a then x (ix1 ⟨p, h⟩) else 0

theorem ext1_ix1 {a : ℕ} (x : (⟨1, ![a]⟩ : Shape).Idx → EReal) (p : Fin a) : ext1 x p.val = x (ix1 p) := by
  unfold ext1; rw [dif_pos p.isLt]

theorem ext1_of_lt {a : ℕ} (x : (⟨1, ![a]⟩ : Shape).Idx → EReal) {p : ℕ} (hp : p < a) : ext1 x p = x (ix1 ⟨p, hp⟩) := by
  unfold ext1; rw [dif_pos hp]

section

variable (st : (⟨2, ![1024, 16641]⟩ : Shape).Idx → EReal) (av : (⟨2, ![1024, 129]⟩ : Shape).Idx → EReal)
  (st1 : (⟨2, ![1024, 16384]⟩ : Shape).Idx → EReal) (W1 : (⟨2, ![33154, 512]⟩ : Shape).Idx → EReal)
  (b1 : (⟨1, ![512]⟩ : Shape).Idx → EReal) (W2 : (⟨2, ![512, 129]⟩ : Shape).Idx → EReal)
  (b2 : (⟨1, ![129]⟩ : Shape).Idx → EReal)

/-- Tile `j` of st against its rows of W1: columns 1024 j … 1024 j + 1023. -/
def stTile (j b h : ℕ) : EReal :=
  ∑ k ∈ Finset.range 1024, ext2 st b (1024 * j + k) * ext2 W1 (1024 * j + k) h

/-- Tile `j` of st1 against its rows of W1, which start at row 16770 = 16641 + 129. -/
def st1Tile (j b h : ℕ) : EReal :=
  ∑ k ∈ Finset.range 1024, ext2 st1 b (1024 * j + k) * ext2 W1 (16770 + 1024 * j + k) h

/-- The columns no tile of 1024 reaches: all of av (rows 16641 … 16769 of W1) and the last 257 columns of st
    (rows 16384 … 16640 of W1). -/
def base (b h : ℕ) : EReal :=
  (∑ k ∈ Finset.range 129, ext2 av b k * ext2 W1 (16641 + k) h)
    + ∑ k ∈ Finset.range 257, ext2 st b (16384 + k) * ext2 W1 (16384 + k) h

/-- The running value of the first layer's sum at entry `(b, h)` after reduction step `i`: step 0 starts from `base`
    and adds st's tile 0, steps 1 … 15 add st's tiles 1 … 15, steps 16 … 31 add st1's tiles 0 … 15. -/
def accUpTo (b h : ℕ) : ℕ → EReal
  | 0 => base st av W1 b h + stTile st W1 0 b h
  | i + 1 => accUpTo b h i + (if i + 1 < 16 then stTile st W1 (i + 1) b h else st1Tile st1 W1 (i + 1 - 16) b h)

/-- The hidden layer: the whole first-layer sum plus the bias, cut off below at zero. -/
def hidden (b h : ℕ) : EReal := max (accUpTo st av st1 W1 b h 31 + ext1 b1 h) 0

/-- The second layer at entry `(b, o)`. -/
def out (b o : ℕ) : EReal :=
  (∑ h ∈ Finset.range 512, hidden st av st1 W1 b1 b h * ext2 W2 h o) + ext1 b2 o

/-- The result, the [1024, 129] output flattened row by row. -/
def G : (⟨1, ![132096]⟩ : Shape).Idx → EReal :=
  fun j => out st av st1 W1 b1 W2 b2 ((j 0).val / 129) ((j 0).val % 129)

end

end Cert.Spec

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.PayloadsIdeal.lean ====
/-
  The kernel body's four payloads read at one entry, over the extended reals.

  Each payload is a chain of pointwise operations around one or two plain matrix products into a zero accumulator.
  Over the extended reals a narrowing of the element format is the identity, a shape cast of a shape to itself is
  the identity, a row broadcast reads the row, and a matrix product with one contracted axis into zero is the sum
  over that axis: so each payload at entry (r, h) is a finite sum of products of its operands' entries.
-/
import proofs.«113821_j69922067579329_2_alg».proof.Proof.Gen.KernelIdeal.Skeleton
import proofs.«113821_j69922067579329_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelValue

open Cert.KernelIdeal Cert.KernelIdeal.Gen Idealize.ShloMosaic Idealize.ShloMosaic.ValueIdx

/-! ## The four dimension records: operand indices are (row, contraction) and (contraction, column) -/

theorem d129_l0 (i : S512x512.Idx) (q : dot_S512x129_S129x512_S512x512_1_0_0_1_n_n.contr.Idx) :
    (dot_S512x129_S129x512_S512x512_1_0_0_1_n_n.lhsIdx i q (0 : Fin 2)).val = (i (0 : Fin 2)).val := by
  unfold DotDims.lhsIdx
  rw [dif_neg (show ¬(0 : Fin S512x129.rank) ∈ dot_S512x129_S129x512_S512x512_1_0_0_1_n_n.lhsBatch by decide),
    dif_pos (show (0 : Fin S512x129.rank) ∈ dot_S512x129_S129x512_S512x512_1_0_0_1_n_n.lhsNonContracting by decide)]
  rfl
theorem d129_l1 (i : S512x512.Idx) (q : dot_S512x129_S129x512_S512x512_1_0_0_1_n_n.contr.Idx) :
    (dot_S512x129_S129x512_S512x512_1_0_0_1_n_n.lhsIdx i q (1 : Fin 2)).val = (q ⟨0, by decide⟩).val :=
  dot_S512x129_S129x512_S512x512_1_0_0_1_n_n.lhsIdx_val_of_single rfl i q
theorem d129_r0 (i : S512x512.Idx) (q : dot_S512x129_S129x512_S512x512_1_0_0_1_n_n.contr.Idx) :
    (dot_S512x129_S129x512_S512x512_1_0_0_1_n_n.rhsIdx i q (0 : Fin 2)).val = (q ⟨0, by decide⟩).val :=
  dot_S512x129_S129x512_S512x512_1_0_0_1_n_n.rhsIdx_val_of_single rfl i q
theorem d129_r1 (i : S512x512.Idx) (q : dot_S512x129_S129x512_S512x512_1_0_0_1_n_n.contr.Idx) :
    (dot_S512x129_S129x512_S512x512_1_0_0_1_n_n.rhsIdx i q (1 : Fin 2)).val = (i (1 : Fin 2)).val := by
  unfold DotDims.rhsIdx
  rw [dif_neg (show ¬(1 : Fin S129x512.rank) ∈ dot_S512x129_S129x512_S512x512_1_0_0_1_n_n.rhsBatch by decide),
    dif_pos (show (1 : Fin S129x512.rank) ∈ dot_S512x129_S129x512_S512x512_1_0_0_1_n_n.rhsNonContracting by decide)]
  rfl

/-- The 512 by 129 times 129 by 512 product into zero, at an entry. -/
theorem mm129 (l : FVec Ideal S512x129 .bf16) (r : FVec Ideal S129x512 .bf16) (p : Fin 512) (q : Fin 512) :
    FloatOps.matmul dot_S512x129_S129x512_S512x512_1_0_0_1_n_n none l r (constant (F := Ideal) S512x512 .f32 0x00000000#32) (ix2 p q)
      = ∑ k : Fin 129, l (ix2 p k) * r (ix2 k q) :=
  Cert.LibMatmul.matmul_zero_ix2 dot_S512x129_S129x512_S512x512_1_0_0_1_n_n rfl rfl d129_l0 d129_l1 d129_r0 d129_r1 none l r p q

theorem d257_l0 (i : S512x512.Idx) (q : dot_S512x257_S257x512_S512x512_1_0_0_1_n_n.contr.Idx) :
    (dot_S512x257_S257x512_S512x512_1_0_0_1_n_n.lhsIdx i q (0 : Fin 2)).val = (i (0 : Fin 2)).val := by
  unfold DotDims.lhsIdx
  rw [dif_neg (show ¬(0 : Fin S512x257.rank) ∈ dot_S512x257_S257x512_S512x512_1_0_0_1_n_n.lhsBatch by decide),
    dif_pos (show (0 : Fin S512x257.rank) ∈ dot_S512x257_S257x512_S512x512_1_0_0_1_n_n.lhsNonContracting by decide)]
  rfl
theorem d257_l1 (i : S512x512.Idx) (q : dot_S512x257_S257x512_S512x512_1_0_0_1_n_n.contr.Idx) :
    (dot_S512x257_S257x512_S512x512_1_0_0_1_n_n.lhsIdx i q (1 : Fin 2)).val = (q ⟨0, by decide⟩).val :=
  dot_S512x257_S257x512_S512x512_1_0_0_1_n_n.lhsIdx_val_of_single rfl i q
theorem d257_r0 (i : S512x512.Idx) (q : dot_S512x257_S257x512_S512x512_1_0_0_1_n_n.contr.Idx) :
    (dot_S512x257_S257x512_S512x512_1_0_0_1_n_n.rhsIdx i q (0 : Fin 2)).val = (q ⟨0, by decide⟩).val :=
  dot_S512x257_S257x512_S512x512_1_0_0_1_n_n.rhsIdx_val_of_single rfl i q
theorem d257_r1 (i : S512x512.Idx) (q : dot_S512x257_S257x512_S512x512_1_0_0_1_n_n.contr.Idx) :
    (dot_S512x257_S257x512_S512x512_1_0_0_1_n_n.rhsIdx i q (1 : Fin 2)).val = (i (1 : Fin 2)).val := by
  unfold DotDims.rhsIdx
  rw [dif_neg (show ¬(1 : Fin S257x512.rank) ∈ dot_S512x257_S257x512_S512x512_1_0_0_1_n_n.rhsBatch by decide),
    dif_pos (show (1 : Fin S257x512.rank) ∈ dot_S512x257_S257x512_S512x512_1_0_0_1_n_n.rhsNonContracting by decide)]
  rfl

/-- The 512 by 257 times 257 by 512 product into zero, at an entry. -/
theorem mm257 (l : FVec Ideal S512x257 .bf16) (r : FVec Ideal S257x512 .bf16) (p : Fin 512) (q : Fin 512) :
    FloatOps.matmul dot_S512x257_S257x512_S512x512_1_0_0_1_n_n none l r (constant (F := Ideal) S512x512 .f32 0x00000000#32) (ix2 p q)
      = ∑ k : Fin 257, l (ix2 p k) * r (ix2 k q) :=
  Cert.LibMatmul.matmul_zero_ix2 dot_S512x257_S257x512_S512x512_1_0_0_1_n_n rfl rfl d257_l0 d257_l1 d257_r0 d257_r1 none l r p q

theorem d1024_l0 (i : S512x512.Idx) (q : dot_S512x1024_S1024x512_S512x512_1_0_0_1_n_n.contr.Idx) :
    (dot_S512x1024_S1024x512_S512x512_1_0_0_1_n_n.lhsIdx i q (0 : Fin 2)).val = (i (0 : Fin 2)).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem d1024_l1 (i : S512x512.Idx) (q : dot_S512x1024_S1024x512_S512x512_1_0_0_1_n_n.contr.Idx) :
    (dot_S512x1024_S1024x512_S512x512_1_0_0_1_n_n.lhsIdx i q (1 : Fin 2)).val = (q ⟨0, by decide⟩).val :=
  dot_S512x1024_S1024x512_S512x512_1_0_0_1_n_n.lhsIdx_val_of_single rfl i q
theorem d1024_r0 (i : S512x512.Idx) (q : dot_S512x1024_S1024x512_S512x512_1_0_0_1_n_n.contr.Idx) :
    (dot_S512x1024_S1024x512_S512x512_1_0_0_1_n_n.rhsIdx i q (0 : Fin 2)).val = (q ⟨0, by decide⟩).val :=
  dot_S512x1024_S1024x512_S512x512_1_0_0_1_n_n.rhsIdx_val_of_single rfl i q
theorem d1024_r1 (i : S512x512.Idx) (q : dot_S512x1024_S1024x512_S512x512_1_0_0_1_n_n.contr.Idx) :
    (dot_S512x1024_S1024x512_S512x512_1_0_0_1_n_n.rhsIdx i q (1 : Fin 2)).val = (i (1 : Fin 2)).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The 512 by 1024 times 1024 by 512 product into zero, at an entry. -/
theorem mm1024 (l : FVec Ideal S512x1024 .bf16) (r : FVec Ideal S1024x512 .bf16) (p : Fin 512) (q : Fin 512) :
    FloatOps.matmul dot_S512x1024_S1024x512_S512x512_1_0_0_1_n_n none l r (constant (F := Ideal) S512x512 .f32 0x00000000#32) (ix2 p q)
      = ∑ k : Fin 1024, l (ix2 p k) * r (ix2 k q) :=
  Cert.LibMatmul.matmul_zero_ix2 dot_S512x1024_S1024x512_S512x512_1_0_0_1_n_n rfl rfl d1024_l0 d1024_l1 d1024_r0 d1024_r1 none l r p q

theorem d512_l0 (i : S512x129.Idx) (q : dot_S512x512_S512x129_S512x129_1_0_0_1_n_n.contr.Idx) :
    (dot_S512x512_S512x129_S512x129_1_0_0_1_n_n.lhsIdx i q (0 : Fin 2)).val = (i (0 : Fin 2)).val := by
  unfold DotDims.lhsIdx
  rw [dif_neg (show ¬(0 : Fin S512x512.rank) ∈ dot_S512x512_S512x129_S512x129_1_0_0_1_n_n.lhsBatch by decide),
    dif_pos (show (0 : Fin S512x512.rank) ∈ dot_S512x512_S512x129_S512x129_1_0_0_1_n_n.lhsNonContracting by decide)]
  rfl
theorem d512_l1 (i : S512x129.Idx) (q : dot_S512x512_S512x129_S512x129_1_0_0_1_n_n.contr.Idx) :
    (dot_S512x512_S512x129_S512x129_1_0_0_1_n_n.lhsIdx i q (1 : Fin 2)).val = (q ⟨0, by decide⟩).val :=
  dot_S512x512_S512x129_S512x129_1_0_0_1_n_n.lhsIdx_val_of_single rfl i q
theorem d512_r0 (i : S512x129.Idx) (q : dot_S512x512_S512x129_S512x129_1_0_0_1_n_n.contr.Idx) :
    (dot_S512x512_S512x129_S512x129_1_0_0_1_n_n.rhsIdx i q (0 : Fin 2)).val = (q ⟨0, by decide⟩).val :=
  dot_S512x512_S512x129_S512x129_1_0_0_1_n_n.rhsIdx_val_of_single rfl i q
theorem d512_r1 (i : S512x129.Idx) (q : dot_S512x512_S512x129_S512x129_1_0_0_1_n_n.contr.Idx) :
    (dot_S512x512_S512x129_S512x129_1_0_0_1_n_n.rhsIdx i q (1 : Fin 2)).val = (i (1 : Fin 2)).val := by
  unfold DotDims.rhsIdx
  rw [dif_neg (show ¬(1 : Fin S512x129.rank) ∈ dot_S512x512_S512x129_S512x129_1_0_0_1_n_n.rhsBatch by decide),
    dif_pos (show (1 : Fin S512x129.rank) ∈ dot_S512x512_S512x129_S512x129_1_0_0_1_n_n.rhsNonContracting by decide)]
  rfl

/-- The 512 by 512 times 512 by 129 product into zero, at an entry. -/
theorem mm512 (l : FVec Ideal S512x512 .bf16) (r : FVec Ideal S512x129 .bf16) (p : Fin 512) (q : Fin 129) :
    FloatOps.matmul dot_S512x512_S512x129_S512x129_1_0_0_1_n_n none l r (constant (F := Ideal) S512x129 .f32 0x00000000#32) (ix2 p q)
      = ∑ k : Fin 512, l (ix2 p k) * r (ix2 k q) :=
  Cert.LibMatmul.matmul_zero_ix2 dot_S512x512_S512x129_S512x129_1_0_0_1_n_n rfl rfl d512_l0 d512_l1 d512_r0 d512_r1 none l r p q

/-! ## The payloads at an entry -/

theorem pay2_apply (acc : Vec Ideal S512x512 .f32) (x2 : Vec Ideal S512x1024 .f32) (x3 : Vec Ideal S1024x512 .f32) (r h : Fin 512) :
    k0_pay2 (F := Ideal) acc x2 x3 (ix2 r h) = acc (ix2 r h) + ∑ k : Fin 1024, x2 (ix2 r k) * x3 (ix2 k h) := by
  unfold k0_pay2
  simp only [shapeCast_self]
  exact congrArg (fun t => acc (ix2 r h) + t) (mm1024 _ _ r h)

theorem pay3_apply (acc : Vec Ideal S512x512 .f32) (x4 : Vec Ideal S512x1024 .f32) (x5 : Vec Ideal S1024x512 .f32) (r h : Fin 512) :
    k0_pay3 (F := Ideal) acc x4 x5 (ix2 r h) = acc (ix2 r h) + ∑ k : Fin 1024, x4 (ix2 r k) * x5 (ix2 k h) := by
  unfold k0_pay3
  simp only [shapeCast_self]
  exact congrArg (fun t => acc (ix2 r h) + t) (mm1024 _ _ r h)

theorem pay1_apply (x6 : Vec Ideal S512x129 .f32) (x7 : Vec Ideal S129x512 .f32) (x8 : Vec Ideal S512x257 .f32) (x9 : Vec Ideal S257x512 .f32) (r : Fin 512) (h : Fin 512) :
    k0_pay1 (F := Ideal) x6 x7 x8 x9 (ix2 r h) = (∑ k : Fin 129, x6 (ix2 r k) * x7 (ix2 k h)) + ∑ k : Fin 257, x8 (ix2 r k) * x9 (ix2 k h) := by
  unfold k0_pay1
  simp only [shapeCast_self]
  exact congrArg₂ (fun s t : EReal => s + t) (mm129 _ _ r h) (mm257 _ _ r h)

theorem pay4_apply (acc : Vec Ideal S512x512 .f32) (x10 : Vec Ideal S1x512 .f32) (x11 : Vec Ideal S512x129 .f32) (x12 : Vec Ideal S1x129 .f32) (r : Fin 512) (o : Fin 129) :
    k0_pay4 (F := Ideal) acc x10 x11 x12 (ix2 r o) = (∑ h : Fin 512, max (acc (ix2 r h) + x10 (ix2 (0 : Fin 1) h)) 0 * x11 (ix2 h o)) + x12 (ix2 (0 : Fin 1) o) := by
  unfold k0_pay4
  simp only [shapeCast_self]
  refine (congrArg₂ (fun s t : EReal => s + t) (mm512 _ _ r o) (broadcastTo_1b_ab_apply x12 _ r o)).trans ?_
  refine congrArg (fun s : EReal => s + x12 (ix2 (0 : Fin 1) o)) ?_
  refine Finset.sum_congr rfl fun h _ => ?_
  refine congrArg (fun s : EReal => s * x11 (ix2 h o)) ?_
  show max (acc (ix2 r h) + broadcastTo S512x512 x10 broadcasts_S1x512_S512x512 (ix2 r h)) (Ideal.ofBits .f32 0x00000000#32) = _
  rw [broadcastTo_1b_ab_apply, Ideal.ofBits_zero_f32]

end Cert.KernelValue

end
-- ==== Proof.BlocksIdeal.lean ====
/-
  The blocks the kernel's windows stage, read at an index, are entries of the argument arrays continued by zero
  (`Cert.Spec.ext1`, `Cert.Spec.ext2`): which rows and columns of which array each block holds at each grid point.
-/
import proofs.«113821_j69922067579329_2_alg».proof.Proof.KernelIdeal.Body
import proofs.«113821_j69922067579329_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelValue

open Cert.KernelIdeal Cert.KernelIdeal.Gen
open Idealize.ShloMosaic Idealize.ShloMosaic.TcCoe Idealize.ShloMosaic.ValueIdx Idealize.SL.Sem
open Cert.Spec

variable (m : (ℓ : Loc nD τ sig) → Buf (Elt Ideal) ℓ) (c : Dev nD) (t : Fin cfg0.N)

/-- The grid has 64 points. -/
theorem t_lt : t.val < 64 := by have h := t.isLt; have e : cfg0.N = 64 := N_0; omega

/-! ## Where each window's block sits at a grid point -/

theorem idx4 : ∀ t : Fin cfg0.N, win0_4.index t 0 = t.val / 32 ∧ win0_4.index t 1 = 0 :=
  (by decide +kernel : ∀ t : Fin grid0.N, win0_4.index t 0 = t.val / 32 ∧ win0_4.index t 1 = 0)

/-- Window 4 stages rows 512 p … 512 p + 511 of av, all 129 columns. -/
theorem iblk4_apply (r : Fin 512) (k : Fin 129) :
    (iblk m c 4 t : Vec Ideal S512x129 .f32) (ix2 r k)
      = ext2 (m ((c : Thread nD τ).loc main_arg1)) (512 * (t.val / 32) + r.val) k.val := by
  have ht := t_lt t
  rw [ext2_of_lt _ (show 512 * (t.val / 32) + r.val < 1024 by omega) k.isLt]
  unfold iblk
  rw [View.read_apply]
  show V m c main_arg1 _ = _
  rw [V_main_arg1]
  refine congrArg _ (funext fun a => Fin.ext ?_)
  match a with
  | ⟨0, _⟩ => show win0_4.index t 0 * 512 + 1 * r.val = 512 * (t.val / 32) + r.val; rw [(idx4 t).1]; omega
  | ⟨1, _⟩ => show win0_4.index t 1 * 129 + 1 * k.val = k.val; rw [(idx4 t).2]; omega

theorem idx2 : ∀ t : Fin cfg0.N, win0_2.index t 0 = t.val / 32 ∧ win0_2.index t 1 = min 15 (t.val % 32 - 16) :=
  (by decide +kernel : ∀ t : Fin grid0.N, win0_2.index t 0 = t.val / 32 ∧ win0_2.index t 1 = min 15 (t.val % 32 - 16))

/-- From reduction step 16 on, window 2 stages rows 512 p … 512 p + 511 and columns 1024 (i - 16) … 1024 (i - 16) + 1023
    of st1. -/
theorem iblk2_apply (hi : 16 ≤ t.val % 32) (r : Fin 512) (k : Fin 1024) :
    (iblk m c 2 t : Vec Ideal S512x1024 .f32) (ix2 r k)
      = ext2 (m ((c : Thread nD τ).loc main_arg2)) (512 * (t.val / 32) + r.val) (1024 * (t.val % 32 - 16) + k.val) := by
  have ht := t_lt t
  rw [ext2_of_lt _ (show 512 * (t.val / 32) + r.val < 1024 by omega)
    (show 1024 * (t.val % 32 - 16) + k.val < 16384 by omega)]
  unfold iblk
  rw [View.read_apply]
  show V m c main_arg2 _ = _
  rw [V_main_arg2]
  refine congrArg _ (funext fun a => Fin.ext ?_)
  match a with
  | ⟨0, _⟩ => show win0_2.index t 0 * 512 + 1 * r.val = 512 * (t.val / 32) + r.val; rw [(idx2 t).1]; omega
  | ⟨1, _⟩ =>
    show win0_2.index t 1 * 1024 + 1 * k.val = 1024 * (t.val % 32 - 16) + k.val
    rw [(idx2 t).2]; omega

theorem idx9 : ∀ t : Fin cfg0.N, win0_9.index t 0 = 0 ∧ win0_9.index t 1 = 0 :=
  (by decide +kernel : ∀ t : Fin grid0.N, win0_9.index t 0 = 0 ∧ win0_9.index t 1 = 0)

/-- Window 9 stages all of W2. -/
theorem iblk9_apply (h : Fin 512) (o : Fin 129) :
    (iblk m c 9 t : Vec Ideal S512x129 .f32) (ix2 h o) = ext2 (m ((c : Thread nD τ).loc main_arg5)) h.val o.val := by
  rw [ext2_ix2]
  unfold iblk
  rw [View.read_apply]
  show V m c main_arg5 _ = _
  rw [V_main_arg5]
  refine congrArg _ (funext fun a => Fin.ext ?_)
  match a with
  | ⟨0, _⟩ => show win0_9.index t 0 * 512 + 1 * h.val = h.val; rw [(idx9 t).1]; omega
  | ⟨1, _⟩ => show win0_9.index t 1 * 129 + 1 * o.val = o.val; rw [(idx9 t).2]; omega

/-! ## The arrays the host operations before the region write -/

theorem V_main_v0 : V m c main_v0
    = extractStridedSlice S257x512 ![16384, 0] (m ((c : Thread nD τ).loc main_arg3)) slices_S33154x512_S257x512_16384_0 := by
  show StableHlo.after hostOps0 (fun b => m (c, b)) (Proc.devRef .tc main_v0) = _
  after_results
theorem V_main_v1 : V m c main_v1
    = extractStridedSlice S129x512 ![16641, 0] (m ((c : Thread nD τ).loc main_arg3)) slices_S33154x512_S129x512_16641_0 := by
  show StableHlo.after hostOps0 (fun b => m (c, b)) (Proc.devRef .tc main_v1) = _
  after_results
theorem V_main_v2 : V m c main_v2
    = extractStridedSlice S16384x512 ![16770, 0] (m ((c : Thread nD τ).loc main_arg3)) slices_S33154x512_S16384x512_16770_0 := by
  show StableHlo.after hostOps0 (fun b => m (c, b)) (Proc.devRef .tc main_v2) = _
  after_results
theorem V_main_v3 : V m c main_v3
    = extractStridedSlice S1024x257 ![0, 16384] (m ((c : Thread nD τ).loc main_arg0)) slices_S1024x16641_S1024x257_0_16384 := by
  show StableHlo.after hostOps0 (fun b => m (c, b)) (Proc.devRef .tc main_v3) = _
  after_results
theorem V_main_v4 : V m c main_v4
    = shapeCast S1x512 (m ((c : Thread nD τ).loc main_arg4)) shapeCasts_S512_S1x512 := by
  show StableHlo.after hostOps0 (fun b => m (c, b)) (Proc.devRef .tc main_v4) = _
  after_results
  rfl
theorem V_main_v5 : V m c main_v5
    = shapeCast S1x129 (m ((c : Thread nD τ).loc main_arg6)) shapeCasts_S129_S1x129 := by
  show StableHlo.after hostOps0 (fun b => m (c, b)) (Proc.devRef .tc main_v5) = _
  after_results
  rfl

/-! ## The blocks of the windows on those arrays -/

theorem idx3 : ∀ t : Fin cfg0.N, win0_3.index t 0 = min 15 (t.val % 32 - 16) ∧ win0_3.index t 1 = 0 :=
  (by decide +kernel : ∀ t : Fin grid0.N, win0_3.index t 0 = min 15 (t.val % 32 - 16) ∧ win0_3.index t 1 = 0)

/-- From reduction step 16 on, window 3 stages rows 16770 + 1024 (i - 16) … + 1023 of W1: the rows that meet st1's
    tile i - 16. -/
theorem iblk3_apply (hi : 16 ≤ t.val % 32) (k : Fin 1024) (h : Fin 512) :
    (iblk m c 3 t : Vec Ideal S1024x512 .f32) (ix2 k h)
      = ext2 (m ((c : Thread nD τ).loc main_arg3)) (16770 + 1024 * (t.val % 32 - 16) + k.val) h.val := by
  have ht := t_lt t
  rw [ext2_of_lt _ (show 16770 + 1024 * (t.val % 32 - 16) + k.val < 33154 by omega) h.isLt]
  unfold iblk
  rw [View.read_apply]
  show V m c main_v2 _ = _
  rw [V_main_v2]
  refine extractStridedSlice_apply _ _ _ _ _ (fun a => ?_)
  match a with
  | ⟨0, _⟩ =>
    show 16770 + 1024 * (t.val % 32 - 16) + k.val = 16770 + (win0_3.index t 0 * 1024 + 1 * k.val)
    rw [(idx3 t).1]; omega
  | ⟨1, _⟩ => show h.val = 0 + (win0_3.index t 1 * 512 + 1 * h.val); rw [(idx3 t).2]; omega

theorem idx5 : ∀ t : Fin cfg0.N, win0_5.index t 0 = 0 ∧ win0_5.index t 1 = 0 :=
  (by decide +kernel : ∀ t : Fin grid0.N, win0_5.index t 0 = 0 ∧ win0_5.index t 1 = 0)

/-- Window 5 stages rows 16641 … 16769 of W1: the rows that meet av. -/
theorem iblk5_apply (k : Fin 129) (h : Fin 512) :
    (iblk m c 5 t : Vec Ideal S129x512 .f32) (ix2 k h)
      = ext2 (m ((c : Thread nD τ).loc main_arg3)) (16641 + k.val) h.val := by
  rw [ext2_of_lt _ (show 16641 + k.val < 33154 by omega) h.isLt]
  unfold iblk
  rw [View.read_apply]
  show V m c main_v1 _ = _
  rw [V_main_v1]
  refine extractStridedSlice_apply _ _ _ _ _ (fun a => ?_)
  match a with
  | ⟨0, _⟩ => show 16641 + k.val = 16641 + (win0_5.index t 0 * 129 + 1 * k.val); rw [(idx5 t).1]; omega
  | ⟨1, _⟩ => show h.val = 0 + (win0_5.index t 1 * 512 + 1 * h.val); rw [(idx5 t).2]; omega

theorem idx6 : ∀ t : Fin cfg0.N, win0_6.index t 0 = t.val / 32 ∧ win0_6.index t 1 = 0 :=
  (by decide +kernel : ∀ t : Fin grid0.N, win0_6.index t 0 = t.val / 32 ∧ win0_6.index t 1 = 0)

/-- Window 6 stages rows 512 p … 512 p + 511 of the last 257 columns of st. -/
theorem iblk6_apply (r : Fin 512) (k : Fin 257) :
    (iblk m c 6 t : Vec Ideal S512x257 .f32) (ix2 r k)
      = ext2 (m ((c : Thread nD τ).loc main_arg0)) (512 * (t.val / 32) + r.val) (16384 + k.val) := by
  have ht := t_lt t
  rw [ext2_of_lt _ (show 512 * (t.val / 32) + r.val < 1024 by omega) (show 16384 + k.val < 16641 by omega)]
  unfold iblk
  rw [View.read_apply]
  show V m c main_v3 _ = _
  rw [V_main_v3]
  refine extractStridedSlice_apply _ _ _ _ _ (fun a => ?_)
  match a with
  | ⟨0, _⟩ =>
    show 512 * (t.val / 32) + r.val = 0 + (win0_6.index t 0 * 512 + 1 * r.val)
    rw [(idx6 t).1]; omega
  | ⟨1, _⟩ => show 16384 + k.val = 16384 + (win0_6.index t 1 * 257 + 1 * k.val); rw [(idx6 t).2]; omega

theorem idx7 : ∀ t : Fin cfg0.N, win0_7.index t 0 = 0 ∧ win0_7.index t 1 = 0 :=
  (by decide +kernel : ∀ t : Fin grid0.N, win0_7.index t 0 = 0 ∧ win0_7.index t 1 = 0)

/-- Window 7 stages rows 16384 … 16640 of W1: the rows that meet the last 257 columns of st. -/
theorem iblk7_apply (k : Fin 257) (h : Fin 512) :
    (iblk m c 7 t : Vec Ideal S257x512 .f32) (ix2 k h)
      = ext2 (m ((c : Thread nD τ).loc main_arg3)) (16384 + k.val) h.val := by
  rw [ext2_of_lt _ (show 16384 + k.val < 33154 by omega) h.isLt]
  unfold iblk
  rw [View.read_apply]
  show V m c main_v0 _ = _
  rw [V_main_v0]
  refine extractStridedSlice_apply _ _ _ _ _ (fun a => ?_)
  match a with
  | ⟨0, _⟩ => show 16384 + k.val = 16384 + (win0_7.index t 0 * 257 + 1 * k.val); rw [(idx7 t).1]; omega
  | ⟨1, _⟩ => show h.val = 0 + (win0_7.index t 1 * 512 + 1 * h.val); rw [(idx7 t).2]; omega

theorem idx8 : ∀ t : Fin cfg0.N, win0_8.index t 0 = 0 ∧ win0_8.index t 1 = 0 :=
  (by decide +kernel : ∀ t : Fin grid0.N, win0_8.index t 0 = 0 ∧ win0_8.index t 1 = 0)

/-- Window 8 stages b1 as one row. -/
theorem iblk8_apply (h : Fin 512) :
    (iblk m c 8 t : Vec Ideal S1x512 .f32) (ix2 (0 : Fin 1) h) = ext1 (m ((c : Thread nD τ).loc main_arg4)) h.val := by
  rw [ext1_ix1]
  unfold iblk
  rw [View.read_apply]
  show V m c main_v4 _ = _
  rw [V_main_v4]
  refine shapeCast_apply _ _ _ _ ?_
  show (S512.rowMajor (ix1 h)).val = (S1x512.rowMajor _).val
  rw [Shape.rowMajor_val_one, Shape.rowMajor_val_two]
  show h.val = (win0_8.index t 0 * 1 + 1 * 0) * 512 + (win0_8.index t 1 * 512 + 1 * h.val)
  rw [(idx8 t).1, (idx8 t).2]; omega

theorem idx10 : ∀ t : Fin cfg0.N, win0_10.index t 0 = 0 ∧ win0_10.index t 1 = 0 :=
  (by decide +kernel : ∀ t : Fin grid0.N, win0_10.index t 0 = 0 ∧ win0_10.index t 1 = 0)

/-- Window 10 stages b2 as one row. -/
theorem iblk10_apply (o : Fin 129) :
    (iblk m c 10 t : Vec Ideal S1x129 .f32) (ix2 (0 : Fin 1) o) = ext1 (m ((c : Thread nD τ).loc main_arg6)) o.val := by
  rw [ext1_ix1]
  unfold iblk
  rw [View.read_apply]
  show V m c main_v5 _ = _
  rw [V_main_v5]
  refine shapeCast_apply _ _ _ _ ?_
  show (S129.rowMajor (ix1 o)).val = (S1x129.rowMajor _).val
  rw [Shape.rowMajor_val_one, Shape.rowMajor_val_two]
  show o.val = (win0_10.index t 0 * 1 + 1 * 0) * 129 + (win0_10.index t 1 * 129 + 1 * o.val)
  rw [(idx10 t).1, (idx10 t).2]; omega

/-! ## The two big operands' blocks, as whole staging buffers -/

theorem idx0 : ∀ t : Fin cfg0.N, win0_0.index t 0 = t.val / 32 ∧ win0_0.index t 1 = min (t.val % 32) 15 :=
  (by decide +kernel : ∀ t : Fin grid0.N, win0_0.index t 0 = t.val / 32 ∧ win0_0.index t 1 = min (t.val % 32) 15)

/-- Up to reduction step 15, window 0's buffer holds rows 512 p … 512 p + 511 and columns 1024 i … 1024 i + 1023 of st. -/
theorem blk0_apply (hi : t.val % 32 < 16) (r : Fin 512) (k : Fin 1024) :
    Hand.blk0 m c t (ix2 r k)
      = ext2 (m ((c : Thread nD τ).loc main_arg0)) (512 * (t.val / 32) + r.val) (1024 * (t.val % 32) + k.val) := by
  have ht := t_lt t
  have hmv : win0_0.moved (grid0.coords t) (ix2 r k) = true := (win0_0.moved_iff _ _).mpr fun a => by
    show ((ix2 r k : S512x1024.Idx) a).val < (win0_0.clip (grid0.coords t) a).extent (S512x1024.size a)
    rw [Hand.noclip0 t a]
    exact ((ix2 r k : S512x1024.Idx) a).isLt
  unfold Hand.blk0 Pipeline.Window.fill
  rw [dif_pos hmv, ext2_of_lt _ (show 512 * (t.val / 32) + r.val < 1024 by omega)
    (show 1024 * (t.val % 32) + k.val < 16641 by omega)]
  unfold iblk
  rw [View.read_apply]
  show V m c main_arg0 _ = _
  rw [V_main_arg0]
  refine congrArg _ (funext fun a => Fin.ext ?_)
  match a with
  | ⟨0, _⟩ => show win0_0.index t 0 * 512 + 1 * r.val = 512 * (t.val / 32) + r.val; rw [(idx0 t).1]; omega
  | ⟨1, _⟩ =>
    show win0_0.index t 1 * 1024 + 1 * k.val = 1024 * (t.val % 32) + k.val
    rw [(idx0 t).2]; omega

theorem idx1 : ∀ t : Fin cfg0.N, win0_1.index t 0 = min (t.val % 32) 15 ∧ win0_1.index t 1 = 0 :=
  (by decide +kernel : ∀ t : Fin grid0.N, win0_1.index t 0 = min (t.val % 32) 15 ∧ win0_1.index t 1 = 0)

/-- Up to reduction step 15, window 1's buffer holds rows 1024 i … 1024 i + 1023 of W1: the rows that meet st's tile i. -/
theorem blk1_apply (hi : t.val % 32 < 16) (k : Fin 1024) (h : Fin 512) :
    Hand.blk1 m c t (ix2 k h)
      = ext2 (m ((c : Thread nD τ).loc main_arg3)) (1024 * (t.val % 32) + k.val) h.val := by
  have ht := t_lt t
  have hmv : win0_1.moved (grid0.coords t) (ix2 k h) = true := (win0_1.moved_iff _ _).mpr fun a => by
    show ((ix2 k h : S1024x512.Idx) a).val < (win0_1.clip (grid0.coords t) a).extent (S1024x512.size a)
    rw [Hand.noclip1 t a]
    exact ((ix2 k h : S1024x512.Idx) a).isLt
  unfold Hand.blk1 Pipeline.Window.fill
  rw [dif_pos hmv, ext2_of_lt _ (show 1024 * (t.val % 32) + k.val < 33154 by omega) h.isLt]
  unfold iblk
  rw [View.read_apply]
  show V m c main_arg3 _ = _
  rw [V_main_arg3]
  refine congrArg _ (funext fun a => Fin.ext ?_)
  match a with
  | ⟨0, _⟩ =>
    show win0_1.index t 0 * 1024 + 1 * k.val = 1024 * (t.val % 32) + k.val
    rw [(idx1 t).1]; omega
  | ⟨1, _⟩ => show win0_1.index t 1 * 512 + 1 * h.val = h.val; rw [(idx1 t).2]; omega

end Cert.KernelValue

end
-- ==== Proof.KernelValue.lean ====
/-
  What the idealized kernel computes, over the extended reals: its result array is `Cert.Spec.G` of the arguments.

  At grid point t = 32 p + i (p the half of the batch, i the reduction index) the accumulator holds, at row r and
  column h, the running first-layer sum `Spec.accUpTo` of batch row 512 p + r after step i: this is an induction on
  the point, each case one store's payload read at an index, its operand blocks read off the argument arrays. At
  i = 31 the output block is the second layer `Spec.out` of those rows; the two blocks written back (p = 0, 1) cover
  the [1024, 129] result, and the reshape after the region flattens it row by row.
-/
import proofs.«113821_j69922067579329_2_alg».proof.Proof.KernelIdeal.Body
import proofs.«113821_j69922067579329_2_alg».proof.Proof.Spec
import proofs.«113821_j69922067579329_2_alg».proof.Proof.PayloadsIdeal
import proofs.«113821_j69922067579329_2_alg».proof.Proof.BlocksIdeal
import Idealize.ShloMosaic.Lib.Pipeline.Value
import Idealize.ShloMosaic.Lib.ValueIdx
import Idealize.ShloMosaic.Lib.StableHlo.Run

set_option maxRecDepth 16384

noncomputable section

open scoped BigOperators

namespace Cert.KernelValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Spec

variable (m : (ℓ : Loc nD τ sig) → Buf (Elt Ideal) ℓ) (ρ : Dev nD → PrngReg)

/-- One more step of the running sum. -/
theorem accUpTo_succ (st : (⟨2, ![1024, 16641]⟩ : Shape).Idx → EReal) (av : (⟨2, ![1024, 129]⟩ : Shape).Idx → EReal)
    (st1 : (⟨2, ![1024, 16384]⟩ : Shape).Idx → EReal) (W1 : (⟨2, ![33154, 512]⟩ : Shape).Idx → EReal) (b h i : ℕ) :
    accUpTo st av st1 W1 b h (i + 1)
      = accUpTo st av st1 W1 b h i + (if i + 1 < 16 then stTile st W1 (i + 1) b h else st1Tile st1 W1 (i + 1 - 16) b h) := rfl

/-- The accumulator after a point where the reduction starts is the running sum after step 0. -/
theorem start_apply (c : Dev nD) (t : Fin cfg0.N) (h0 : t.val % 32 = 0) (r h : Fin 512) :
    startAt m c t (ix2 r h)
      = accUpTo (m ((c : Thread nD τ).loc main_arg0)) (m ((c : Thread nD τ).loc main_arg1)) (m ((c : Thread nD τ).loc main_arg2))
          (m ((c : Thread nD τ).loc main_arg3)) (512 * (t.val / 32) + r.val) h.val 0 := by
  unfold startAt
  rw [pay2_apply, pay1_apply]
  simp only [iblk4_apply, iblk5_apply, iblk6_apply, iblk7_apply, blk0_apply m c t (by omega), blk1_apply m c t (by omega)]
  rw [h0]
  unfold accUpTo base stTile
  rw [Fin.sum_univ_eq_sum_range (fun k => ext2 (m ((c : Thread nD τ).loc main_arg1)) (512 * (t.val / 32) + r.val) k * ext2 (m ((c : Thread nD τ).loc main_arg3)) (16641 + k) h.val) 129,
    Fin.sum_univ_eq_sum_range (fun k => ext2 (m ((c : Thread nD τ).loc main_arg0)) (512 * (t.val / 32) + r.val) (16384 + k) * ext2 (m ((c : Thread nD τ).loc main_arg3)) (16384 + k) h.val) 257,
    Fin.sum_univ_eq_sum_range (fun k => ext2 (m ((c : Thread nD τ).loc main_arg0)) (512 * (t.val / 32) + r.val) (1024 * 0 + k) * ext2 (m ((c : Thread nD τ).loc main_arg3)) (1024 * 0 + k) h.val) 1024]

/-- THE ACCUMULATION: after point n the accumulator is the running sum of its batch rows after step n % 32. -/
theorem accAt_apply (c : Dev nD) (n : ℕ) : ∀ (hn : n < cfg0.N) (r h : Fin 512),
    accAt m c n hn (ix2 r h)
      = accUpTo (m ((c : Thread nD τ).loc main_arg0)) (m ((c : Thread nD τ).loc main_arg1)) (m ((c : Thread nD τ).loc main_arg2))
          (m ((c : Thread nD τ).loc main_arg3)) (512 * (n / 32) + r.val) h.val (n % 32) := by
  induction n using Nat.strong_induction_on with
  | _ n ih =>
    intro hn r h
    by_cases h0 : n % 32 = 0
    · refine (congrFun (accAt_start m c ⟨n, hn⟩ h0) (ix2 r h)).trans ?_
      rw [start_apply m c ⟨n, hn⟩ h0 r h, h0]
    · obtain ⟨i, hi⟩ : ∃ i, n % 32 = i + 1 := ⟨n % 32 - 1, by omega⟩
      have hq : (n - 1) / 32 = n / 32 := by omega
      have hm : (n - 1) % 32 = i := by omega
      by_cases h1 : n % 32 < 16
      · refine (congrFun (accAt_st m c ⟨n, hn⟩ h0 h1) (ix2 r h)).trans ?_
        rw [pay2_apply]
        try dsimp only
        rw [ih (n - 1) (by omega) _ r h, hq, hm]
        simp only [blk0_apply m c ⟨n, hn⟩ h1, blk1_apply m c ⟨n, hn⟩ h1]
        try dsimp only
        rw [hi, accUpTo_succ, if_pos (by omega)]
        unfold stTile
        rw [Fin.sum_univ_eq_sum_range (fun k => ext2 (m ((c : Thread nD τ).loc main_arg0)) (512 * (n / 32) + r.val) (1024 * (i + 1) + k) * ext2 (m ((c : Thread nD τ).loc main_arg3)) (1024 * (i + 1) + k) h.val) 1024]
      · refine (congrFun (accAt_st1 m c ⟨n, hn⟩ h0 h1) (ix2 r h)).trans ?_
        rw [pay3_apply]
        try dsimp only
        rw [ih (n - 1) (by omega) _ r h, hq, hm]
        simp only [iblk2_apply m c ⟨n, hn⟩ (by dsimp only; omega), iblk3_apply m c ⟨n, hn⟩ (by dsimp only; omega)]
        try dsimp only
        rw [hi, accUpTo_succ, if_neg (by omega)]
        unfold st1Tile
        rw [Fin.sum_univ_eq_sum_range (fun k => ext2 (m ((c : Thread nD τ).loc main_arg2)) (512 * (n / 32) + r.val) (1024 * (i + 1 - 16) + k) * ext2 (m ((c : Thread nD τ).loc main_arg3)) (16770 + 1024 * (i + 1 - 16) + k) h.val) 1024]

/-- The output block stored at the last reduction step is the second layer of its batch rows. -/
theorem out_apply (c : Dev nD) (t : Fin cfg0.N) (h31 : t.val % 32 = 31) (r : Fin 512) (o : Fin 129) :
    k0_pay4 (accAt m c t.val t.isLt) (iblk m c 8 t) (iblk m c 9 t) (iblk m c 10 t) (ix2 r o)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (512 * (t.val / 32) + r.val) o.val := by
  rw [pay4_apply]
  simp only [accAt_apply m c t.val t.isLt, iblk8_apply, iblk9_apply, iblk10_apply]
  rw [h31]
  unfold Spec.out Spec.hidden
  rw [Fin.sum_univ_eq_sum_range (fun h => max (accUpTo (m ((c : Thread nD τ).loc main_arg0)) (m ((c : Thread nD τ).loc main_arg1)) (m ((c : Thread nD τ).loc main_arg2)) (m ((c : Thread nD τ).loc main_arg3)) (512 * (t.val / 32) + r.val) h 31 + ext1 (m ((c : Thread nD τ).loc main_arg4)) h) 0 * ext2 (m ((c : Thread nD τ).loc main_arg5)) h o.val) 512]

end Cert.KernelValue

end
-- ==== Proof.KernelResult.lean ====
/-
  From the output blocks to the result array. Given that the block stored at the last reduction step of each half of
  the batch is the second layer `Spec.out` of its 512 batch rows (`OutSpec`), the [1024, 129] array the region writes
  is `Spec.out` at every entry — the two blocks written back cover it —, and the reshape after the region flattens it
  row by row into `Spec.G`.
-/
import proofs.«113821_j69922067579329_2_alg».proof.Proof.KernelIdeal.Body
import proofs.«113821_j69922067579329_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The block stored at a point with reduction index 31 is the second layer of that half's batch rows. -/
def OutSpec : Prop := ∀ (c : Dev nD) (t : Fin cfg0.N), t.val % 32 = 31 → ∀ (r : Fin 512) (o : Fin 129),
  k0_pay4 (accAt m c t.val t.isLt) (iblk m c 8 t) (iblk m c 9 t) (iblk m c 10 t) (ix2 r o)
    = Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (512 * (t.val / 32) + r.val) o.val

/-- The second layer as the [1024, 129] array. -/
def G2 (c : Dev nD) : Buf (Elt Ideal) ((c : Thread nD τ).loc main_v6) :=
  fun (j : S1024x129.Idx) => Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0).val (j 1).val

theorem index11 : ∀ t : Fin cfg0.N, win0_11.index t 0 = t.val / 32 ∧ win0_11.index t 1 = 0 :=
  (by decide +kernel : ∀ t : Fin grid0.N, win0_11.index t 0 = t.val / 32 ∧ win0_11.index t 1 = 0)

theorem flushed_eq (hO : OutSpec m) (c : Dev nD) (t : Fin cfg0.N) (hf : (cfg0.win 11).flush t = true) :
    (dats m 0 c).flushed 11 t = ((cfg0.win 11).blk t).view.read (Elt Ideal) (G2 m c) := by
  have h31 : t.val % 32 = 31 := (flush0_11 t).mp hf
  have hidx := index11 t
  show (cfg0.win 11).cut (grid0.coords t) ((dats m 0 c).after 11 t) = _
  rw [after0_11]
  funext (y : S512x129.Idx)
  obtain ⟨r, o, rfl⟩ : ∃ (r : Fin 512) (o : Fin 129), y = ix2 r o := ⟨y 0, y 1, eq_ix2 y⟩
  rw [View.read_apply]
  show k0_pay4 (accAt m c t.val t.isLt) (iblk m c 8 t) (iblk m c 9 t) (iblk m c 10 t) ((cfg0.win 11).xinj (grid0.coords t) (ix2 r o)) = G2 m c (((cfg0.win 11).blk t).view.emb (ix2 r o))
  rw [show (cfg0.win 11).xinj (grid0.coords t) (ix2 r o) = ix2 r o from funext fun a => Fin.ext (by
    match a with
    | ⟨0, _⟩ => rfl
    | ⟨1, _⟩ => rfl)]
  rw [hO c t h31 r o]
  unfold G2
  have e0 : ((((cfg0.win 11).blk t).view.emb (ix2 r o)) 0).val = win0_11.index t 0 * 512 + 1 * r.val := rfl
  have e1 : ((((cfg0.win 11).blk t).view.emb (ix2 r o)) 1).val = win0_11.index t 1 * 129 + 1 * o.val := rfl
  show _ = Spec.out _ _ _ _ _ _ _ ((((cfg0.win 11).blk t).view.emb (ix2 r o)) 0).val ((((cfg0.win 11).blk t).view.emb (ix2 r o)) 1).val
  rw [e0, e1, hidx.1, hidx.2]
  congr 1 <;> omega

/-- The last point of each half of the batch. -/
abbrev tA : Fin cfg0.N := ⟨31, by decide⟩
abbrev tB : Fin cfg0.N := ⟨63, by decide⟩

theorem cover (i : S1024x129.Idx) : ∃ t : Fin cfg0.N, (cfg0.win 11).flush t = true ∧ i ∈ ((cfg0.win 11).blk t).view.set := by
  have h0 : (i 0 : Nat) < 1024 := (i 0).isLt
  have h1 : (i 1 : Nat) < 129 := (i 1).isLt
  by_cases hq : (i 0 : Nat) < 512
  · refine ⟨tA, by decide +kernel, ?_⟩
    show i ∈ ((View.whole main_v6).slice (win0_11.rect tA)).set
    rw [View.set_slice_whole, Rect.mem_set_unit]
    intro a
    match a with
    | ⟨0, _⟩ =>
      show win0_11.index tA 0 * win0_11.size 0 ≤ (i 0 : Nat) ∧ (i 0 : Nat) < win0_11.index tA 0 * win0_11.size 0 + win0_11.xsize (grid0.coords tA) 0
      rw [show win0_11.index tA 0 * win0_11.size 0 = 0 from by decide +kernel, show win0_11.xsize (grid0.coords tA) 0 = 512 from by decide +kernel]; omega
    | ⟨1, _⟩ =>
      show win0_11.index tA 1 * win0_11.size 1 ≤ (i 1 : Nat) ∧ (i 1 : Nat) < win0_11.index tA 1 * win0_11.size 1 + win0_11.xsize (grid0.coords tA) 1
      rw [show win0_11.index tA 1 * win0_11.size 1 = 0 from by decide +kernel, show win0_11.xsize (grid0.coords tA) 1 = 129 from by decide +kernel]; omega
  · refine ⟨tB, by decide +kernel, ?_⟩
    show i ∈ ((View.whole main_v6).slice (win0_11.rect tB)).set
    rw [View.set_slice_whole, Rect.mem_set_unit]
    intro a
    match a with
    | ⟨0, _⟩ =>
      show win0_11.index tB 0 * win0_11.size 0 ≤ (i 0 : Nat) ∧ (i 0 : Nat) < win0_11.index tB 0 * win0_11.size 0 + win0_11.xsize (grid0.coords tB) 0
      rw [show win0_11.index tB 0 * win0_11.size 0 = 512 from by decide +kernel, show win0_11.xsize (grid0.coords tB) 0 = 512 from by decide +kernel]; omega
    | ⟨1, _⟩ =>
      show win0_11.index tB 1 * win0_11.size 1 ≤ (i 1 : Nat) ∧ (i 1 : Nat) < win0_11.index tB 1 * win0_11.size 1 + win0_11.xsize (grid0.coords tB) 1
      rw [show win0_11.index tB 1 * win0_11.size 1 = 0 from by decide +kernel, show win0_11.xsize (grid0.coords tB) 1 = 129 from by decide +kernel]; omega

/-- The array the region writes ends holding the second layer. -/
theorem final_o (hO : OutSpec m) (c : Dev nD) : (dats m 0 c).arrAt 11 cfg0.N = G2 m c :=
  (dats m 0 c).arrAt_eq_of_cover 11 (G2 m c) (flushed_eq m hO c) cover

/-- The result buffer after the reshape that follows the region. -/
theorem tail_eq (hO : OutSpec m) (c : Dev nD) :
    Pipeline.afterTail₀ cfgs (dats m) 0 (V0 m) [hostOps1] c main_v7 = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v7) = _
  after_results
  funext j
  have hw : Pipeline.withArrays (cfgs 0).spec c (V0 m c) (fun w => (dats m 0 c).arrAt w (cfgs 0).N) (Proc.tc.devRef main_v6) = G2 m c :=
    (Pipeline.withArrays_arr spec0 launch0.win.arr_inj c _ _ 11).trans (final_o m hO c)
  show shapeCast S132096 (Pipeline.withArrays (cfgs 0).spec c (V0 m c) (fun w => (dats m 0 c).arrAt w (cfgs 0).N) (Proc.tc.devRef main_v6)) shapeCasts_S1024x129_S132096 j = _
  rw [hw]
  have hj : (j 0).val < 132096 := (j 0).isLt
  refine (shapeCast_apply (s := S1024x129) (t := S132096) (G2 m c) shapeCasts_S1024x129_S132096 j
    (ix2 (⟨(j 0).val / 129, by omega⟩ : Fin 1024) (⟨(j 0).val % 129, by omega⟩ : Fin 129)) ?_).trans ?_
  · rw [Shape.rowMajor_val_two, Shape.rowMajor_val_one]
    show (j 0).val / 129 * 129 + (j 0).val % 129 = (j 0).val
    omega
  · rfl

/-- The idealized kernel's run: the result buffer ends holding `Spec.G` of the arguments, which end as they were. -/
theorem run (hO : OutSpec m) : θ_run defs (onTc (τ := τ) (main (F := Ideal))) ⟨m, fun _ => 0, ρ⟩ (fun r => ∀ c : Dev nD,
      r.2.mem ((c.tc : Thread nD τ).loc main_v7) = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v7 (Pipeline.mem_restRefs_of main_v7 (by decide) (by decide))).trans (tail_eq m hO c),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).1 2).trans (((dats m 0 c).arrAt_in 2 rfl _).trans ((A_eq m c 2).trans (V_main_arg2 m c))),
      ((h c).1 1).trans (((dats m 0 c).arrAt_in 1 rfl _).trans ((A_eq m c 1).trans (V_main_arg3 m c))),
      (((h c).2 main_arg4 (Pipeline.mem_restRefs_of main_arg4 (by decide) (by decide))).trans (W_main_arg4 m (dats m) c)),
      ((h c).1 9).trans (((dats m 0 c).arrAt_in 9 rfl _).trans ((A_eq m c 9).trans (V_main_arg5 m c))),
      (((h c).2 main_arg6 (Pipeline.mem_restRefs_of main_arg6 (by decide) (by decide))).trans (W_main_arg6 m (dats m) c))⟩)
    (run_main m ρ)

end Cert.KernelValue

end
-- ==== Proof.RefValue.lean ====
/-
  The reference's result, read index by index, is the function `Cert.Spec.G` of its argument arrays.
-/
import proofs.«113821_j69922067579329_2_alg».proof.Proof.Gen.ReferenceIdeal.Run
import proofs.«113821_j69922067579329_2_alg».proof.Proof.Gen.ReferenceIdeal.Read
import proofs.«113821_j69922067579329_2_alg».proof.Proof.Spec

noncomputable section

open scoped BigOperators

namespace Cert.RefValue

open Idealize.ShloMosaic Idealize.ShloMosaic.ValueIdx Cert.Spec

/-! ## The sum over the columns in their natural order is the tiled walk -/

/-- Tiles of 1024 consecutive terms laid end to end are the sum over the whole range. -/
theorem sum_tiles (g : ℕ → EReal) (n : ℕ) :
    ∑ j ∈ Finset.range n, ∑ k ∈ Finset.range 1024, g (1024 * j + k) = ∑ k ∈ Finset.range (1024 * n), g k := by
  induction n with
  | zero => simp
  | succ n ih => rw [Finset.sum_range_succ, ih, Nat.mul_succ, Finset.sum_range_add]

section

variable (st : (⟨2, ![1024, 16641]⟩ : Shape).Idx → EReal) (av : (⟨2, ![1024, 129]⟩ : Shape).Idx → EReal)
  (st1 : (⟨2, ![1024, 16384]⟩ : Shape).Idx → EReal) (W1 : (⟨2, ![33154, 512]⟩ : Shape).Idx → EReal)

/-- After steps 0 … i (i ≤ 15) the running value is `base` plus st's tiles 0 … i. -/
theorem accUpTo_st (b h : ℕ) : ∀ i, i < 16 →
    accUpTo st av st1 W1 b h i = base st av W1 b h + ∑ j ∈ Finset.range (i + 1), stTile st W1 j b h
  | 0, _ => by rw [Finset.sum_range_one]; rfl
  | i + 1, hi => by
    rw [accUpTo, if_pos hi, accUpTo_st b h i (by omega), Finset.sum_range_succ _ (i + 1), add_assoc]

/-- After steps 0 … 16 + i (i ≤ 15) it is `base`, all sixteen tiles of st, and st1's tiles 0 … i. -/
theorem accUpTo_st1 (b h : ℕ) : ∀ i, i < 16 →
    accUpTo st av st1 W1 b h (16 + i) = base st av W1 b h + ∑ j ∈ Finset.range 16, stTile st W1 j b h
      + ∑ j ∈ Finset.range (i + 1), st1Tile st1 W1 j b h
  | 0, _ => by
    show accUpTo st av st1 W1 b h (15 + 1) = _
    rw [accUpTo, if_neg (by omega), accUpTo_st st av st1 W1 b h 15 (by omega), Finset.sum_range_one]
  | i + 1, hi => by
    show accUpTo st av st1 W1 b h (16 + i + 1) = _
    rw [accUpTo, if_neg (by omega), accUpTo_st1 b h i (by omega), Finset.sum_range_succ _ (i + 1), add_assoc,
      show 16 + i + 1 - 16 = i + 1 by omega]

/-- Row `b` of the concatenation (st | av | st1) at column `k`. -/
def catRow (b k : ℕ) : EReal :=
  if k < 16641 then ext2 st b k else if k < 16770 then ext2 av b (k - 16641) else ext2 st1 b (k - 16770)

/-- The sum over the 33154 columns in their natural order is the value the tiled walk ends with. -/
theorem sum_cols (b h : ℕ) :
    ∑ k ∈ Finset.range 33154, catRow st av st1 b k * ext2 W1 k h = accUpTo st av st1 W1 b h 31 := by
  have e : Finset.range 33154 = Finset.range (1024 * 16 + 257 + 129 + 1024 * 16) := congrArg Finset.range (by norm_num)
  rw [e, Finset.sum_range_add _ (1024 * 16 + 257 + 129) (1024 * 16), Finset.sum_range_add _ (1024 * 16 + 257) 129,
    Finset.sum_range_add _ (1024 * 16) 257]
  have h1 : ∑ k ∈ Finset.range (1024 * 16), catRow st av st1 b k * ext2 W1 k h
      = ∑ j ∈ Finset.range 16, stTile st W1 j b h := by
    refine Eq.trans ?_ (sum_tiles (fun k => ext2 st b k * ext2 W1 k h) 16).symm
    refine Finset.sum_congr rfl fun k hk => ?_
    have hk' : k < 1024 * 16 := Finset.mem_range.1 hk
    unfold catRow
    rw [if_pos (by omega)]
  have h2 : ∑ k ∈ Finset.range 257, catRow st av st1 b (1024 * 16 + k) * ext2 W1 (1024 * 16 + k) h
      = ∑ k ∈ Finset.range 257, ext2 st b (16384 + k) * ext2 W1 (16384 + k) h := by
    refine Finset.sum_congr rfl fun k hk => ?_
    have hk' : k < 257 := Finset.mem_range.1 hk
    unfold catRow
    rw [if_pos (by omega)]
  have h3 : ∑ k ∈ Finset.range 129, catRow st av st1 b (1024 * 16 + 257 + k) * ext2 W1 (1024 * 16 + 257 + k) h
      = ∑ k ∈ Finset.range 129, ext2 av b k * ext2 W1 (16641 + k) h := by
    refine Finset.sum_congr rfl fun k hk => ?_
    have hk' : k < 129 := Finset.mem_range.1 hk
    unfold catRow
    rw [if_neg (by omega), if_pos (by omega), show 1024 * 16 + 257 + k - 16641 = k by omega]
  have h4 : ∑ k ∈ Finset.range (1024 * 16), catRow st av st1 b (1024 * 16 + 257 + 129 + k) * ext2 W1 (1024 * 16 + 257 + 129 + k) h
      = ∑ j ∈ Finset.range 16, st1Tile st1 W1 j b h := by
    have ht : ∀ j, st1Tile st1 W1 j b h
        = ∑ k ∈ Finset.range 1024, ext2 st1 b (1024 * j + k) * ext2 W1 (16770 + (1024 * j + k)) h := fun j => by
      unfold st1Tile
      refine Finset.sum_congr rfl fun k _ => ?_
      rw [Nat.add_assoc]
    refine Eq.trans ?_ ((sum_tiles (fun k => ext2 st1 b k * ext2 W1 (16770 + k) h) 16).symm.trans
      (Finset.sum_congr rfl fun j _ => (ht j).symm))
    refine Finset.sum_congr rfl fun k hk => ?_
    have hk' : k < 1024 * 16 := Finset.mem_range.1 hk
    unfold catRow
    rw [if_neg (by omega), if_neg (by omega), show 1024 * 16 + 257 + 129 + k - 16770 = k by omega]
  rw [h1, h2, h3, h4]
  show _ = accUpTo st av st1 W1 b h (16 + 15)
  rw [accUpTo_st1 st av st1 W1 b h 15 (by omega)]
  unfold base
  abel

end

/-! ## The program's operations read at an index -/

section

open Cert.ReferenceIdeal

variable (x0 : (⟨S1024x16641, .f32⟩ : BufTy).Contents (Elt Ideal)) (x1 : (⟨S1024x129, .f32⟩ : BufTy).Contents (Elt Ideal))
  (x2 : (⟨S1024x16384, .f32⟩ : BufTy).Contents (Elt Ideal)) (x3 : (⟨S33154x512, .f32⟩ : BufTy).Contents (Elt Ideal))
  (x4 : (⟨S512, .f32⟩ : BufTy).Contents (Elt Ideal)) (x5 : (⟨S512x129, .f32⟩ : BufTy).Contents (Elt Ideal))
  (x6 : (⟨S129, .f32⟩ : BufTy).Contents (Elt Ideal))

/-- The concatenation at row `b`, column `k` is the piece whose span of columns holds `k`, read at `k` less the
    extents of the pieces before it. -/
theorem concat_apply (b : Fin 1024) (k : Fin 33154) :
    Read.val_main_v0 (F := Ideal) x0 x1 x2 (ix2 b k) = catRow x0 x1 x2 b.val k.val := by
  unfold Read.val_main_v0 catRow
  by_cases h0 : k.val < 16641
  · rw [if_pos h0, ext2_of_lt x0 b.isLt h0]
    exact concatenate_apply_piece 1 _ _ (ix2 b k) 0 (by show (0 : ℕ) < 3; omega) S1024x16641 x0 rfl rfl 0 rfl
      (ix2 ⟨b.val, b.isLt⟩ ⟨k.val, h0⟩)
      (fun a ha => by match a with | ⟨0, _⟩ => rfl | ⟨1, _⟩ => exact absurd rfl ha) (Nat.zero_add _)
  · rw [if_neg h0]
    by_cases h1 : k.val < 16770
    · obtain ⟨c, hc⟩ : ∃ c : Fin 129, k.val - 16641 = c.val := ⟨⟨k.val - 16641, by omega⟩, rfl⟩
      rw [if_pos h1, hc, ext2_ix2 x1 b c]
      exact concatenate_apply_piece 1 _ _ (ix2 b k) 1 (by show (1 : ℕ) < 3; omega) S1024x129 x1 rfl rfl 16641 rfl
        (ix2 b c)
        (fun a ha => by match a with | ⟨0, _⟩ => rfl | ⟨1, _⟩ => exact absurd rfl ha)
        (by show 16641 + c.val = k.val; omega)
    · obtain ⟨c, hc⟩ : ∃ c : Fin 16384, k.val - 16770 = c.val := ⟨⟨k.val - 16770, by have := k.isLt; omega⟩, rfl⟩
      rw [if_neg h1, hc, ext2_ix2 x2 b c]
      exact concatenate_apply_piece 1 _ _ (ix2 b k) 2 (by show (2 : ℕ) < 3; omega) S1024x16384 x2 rfl rfl 16770 rfl
        (ix2 b c)
        (fun a ha => by match a with | ⟨0, _⟩ => rfl | ⟨1, _⟩ => exact absurd rfl ha)
        (by show 16770 + c.val = k.val; omega)

/-- The first layer's sum at entry `(b, h)`: the sum over the concatenation's 33154 columns, which is the tiled walk's
    last value. -/
theorem dot1_apply (b : Fin 1024) (h : Fin 512) :
    Read.val_main_v1 (F := Ideal) x0 x1 x2 x3 (ix2 b h) = accUpTo x0 x1 x2 x3 b.val h.val 31 := by
  rw [Read.val_main_v1_apply, ← sum_cols x0 x1 x2 x3 b.val h.val,
    ← Fin.sum_univ_eq_sum_range (fun k => catRow x0 x1 x2 b.val k * ext2 x3 k h.val) 33154]
  refine Finset.sum_congr rfl fun k _ => ?_
  have el : Read.lidx_main_v1 (ix2 b h) k = ix2 b k :=
    funext fun a => by match a with | ⟨0, _⟩ => rfl | ⟨1, _⟩ => rfl
  have er : Read.ridx_main_v1 (ix2 b h) k = ix2 k h :=
    funext fun a => by match a with | ⟨0, _⟩ => rfl | ⟨1, _⟩ => rfl
  rw [el, er, concat_apply, ext2_ix2 x3 k h]

/-- The hidden layer at entry `(b, h)`: the first layer's sum plus the bias, cut off below at zero. -/
theorem hidden_apply (b : Fin 1024) (h : Fin 512) :
    Read.val_main_v5 (F := Ideal) x0 x1 x2 x3 x4 (ix2 b h) = hidden x0 x1 x2 x3 x4 b.val h.val := by
  have e3 : Read.idx_main_v2 (Read.idx_main_v3 (ix2 b h)) = ix1 h := funext fun a => by match a with | ⟨0, _⟩ => rfl
  rw [Read.val_main_v5_apply, Read.val_main_v4_apply, Read.val_main_call0_v0_apply, Read.val_main_call0_cst_apply, Read.val_main_v3_apply,
    Read.val_main_v2_apply, dot1_apply, e3, Ideal.maximumf_def, Ideal.addf_def, Ideal.ofBits_def, Ideal.ofBits_zero_f32,
    ← ext1_ix1 x4 h]
  rfl

/-- The second layer at entry `(b, o)`. -/
theorem out_apply (b : Fin 1024) (o : Fin 129) :
    Read.val_main_v9 (F := Ideal) x0 x1 x2 x3 x4 x5 x6 (ix2 b o) = out x0 x1 x2 x3 x4 x5 x6 b.val o.val := by
  have e8 : Read.idx_main_v7 (Read.idx_main_v8 (ix2 b o)) = ix1 o := funext fun a => by match a with | ⟨0, _⟩ => rfl
  rw [Read.val_main_v9_apply, Read.val_main_v6_apply, Read.val_main_v8_apply, Read.val_main_v7_apply, e8, Ideal.addf_def, ← ext1_ix1 x6 o]
  unfold out
  rw [← Fin.sum_univ_eq_sum_range (fun h => hidden x0 x1 x2 x3 x4 b.val h * ext2 x5 h o.val) 512]
  refine congrArg (· + ext1 x6 o.val) ?_
  refine Finset.sum_congr rfl fun k _ => ?_
  have el : Read.lidx_main_v6 (ix2 b o) k = ix2 b k :=
    funext fun a => by match a with | ⟨0, _⟩ => rfl | ⟨1, _⟩ => rfl
  have er : Read.ridx_main_v6 (ix2 b o) k = ix2 k o :=
    funext fun a => by match a with | ⟨0, _⟩ => rfl | ⟨1, _⟩ => rfl
  rw [el, er, hidden_apply, ext2_ix2 x5 k o]

/-- **The reference's result is `G` of its arguments**: the flat index `j` is entry `(j / 129, j % 129)`. -/
theorem ref_eq_G :
    Read.val_main_v10 (F := Ideal) x0 x1 x2 x3 x4 x5 x6 = G x0 x1 x2 x3 x4 x5 x6 := by
  funext j
  have hj : (j 0).val < 132096 := (j 0).isLt
  have e : Read.idx_main_v10 j = ix2 (⟨(j 0).val / 129, by omega⟩ : Fin 1024) (⟨(j 0).val % 129, by omega⟩ : Fin 129) :=
    funext fun a => by match a with | ⟨0, _⟩ => rfl | ⟨1, _⟩ => rfl
  rw [Read.val_main_v10_apply, e, out_apply]
  rfl

end

end Cert.RefValue

end
-- ==== Proof.lean ====
/-
  The certificate: a two-layer perceptron on the concatenation (st | av | st1) — out = max (x · W1 + b1, 0) · W2 + b2,
  flattened — computed by a kernel that walks the 33154 columns of the first product in tiles, against the plain
  formula.

  The three frames. The kernel runs a 2 × 32 grid: the first coordinate is the half of the batch, the second the
  reduction step; at each point one of four control cases of the body runs on whole staging buffers, the accumulator
  carried from point to point; every point terminates without a fault and writes only the accumulator and the output
  block, so the argument arrays end as they were (at the word level and at the extended reals by one text). The
  reference is straight-line host operations; its frame is its run with the result dropped.

  The idealization rewrote nothing, so there is nothing to preserve.

  The value claim. Over the extended reals both programs compute `Cert.Spec.G` of the arguments: the reference because
  its sum over all columns of the concatenation, regrouped (addition there is commutative and associative), is the
  tiled running sum; the kernel because its accumulator after reduction step i IS that running sum, by induction over
  the grid points. Nothing in the argument uses that the inputs are finite.
-/
import proofs.«113821_j69922067579329_2_alg».proof.Defs
import proofs.«113821_j69922067579329_2_alg».proof.Proof.Gen.Kernel
import proofs.«113821_j69922067579329_2_alg».proof.Proof.Gen.KernelIdeal
import proofs.«113821_j69922067579329_2_alg».proof.Proof.Gen.ReferenceIdeal
import proofs.«113821_j69922067579329_2_alg».proof.Proof.Gen.Pre_finite_inputs
import proofs.«113821_j69922067579329_2_alg».proof.Proof.Gen.ReferenceIdeal.Run
import proofs.«113821_j69922067579329_2_alg».proof.Proof.Gen.ReferenceIdeal.Read
import proofs.«113821_j69922067579329_2_alg».proof.Proof.Kernel.Body
import proofs.«113821_j69922067579329_2_alg».proof.Proof.KernelIdeal.Body
import proofs.«113821_j69922067579329_2_alg».proof.Proof.KernelValue
import proofs.«113821_j69922067579329_2_alg».proof.Proof.KernelResult
import proofs.«113821_j69922067579329_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `Spec.G` of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelValue.run m ρ (Cert.KernelValue.out_apply m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefValue.ref_eq_G, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
